-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x3200000 : Shape := ⟨2, ![2, 3200000]⟩
abbrev S2x32 : Shape := ⟨2, ![2, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S32x1 .f32) (main_arg9 : FVec F S1 .f32) (main_v33 : IVec S_ 1) : IVec S_ 1 :=
  let main_v34 : FVec F S32x1 .f32 := Host.absf main_arg8
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S32 .f32) (main_arg6 : FVec F S32x32 .f32) (main_arg7 : FVec F S32 .f32) (main_arg8 : FVec F S32x1 .f32) (main_arg9 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S100000x2 .f32) (main_arg1 : IVec S2x3200000 32) (main_arg2 : FVec F S2x32 .f32) (main_arg3 : FVec F S32 .f32) (main_arg4 : FVec F S32x32 .f32) (main_arg5 : FVec F S32 .f32) (main_arg6 : FVec F S32x32 .f32) (main_arg7 : FVec F S32 .f32) (main_arg8 : FVec F S32x1 .f32) (main_arg9 : FVec F S1 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S2x32 .f32 := Host.absf main_arg2
  let main_cst_0 : FVec F S_ .f32 := constant S_ .f32 0x7F800000#32
  let main_v5 : FVec F S2x32 .f32 := broadcastInDim S2x32 ![] bcast_S_S2x32 main_cst_0
  let main_v6 : IVec S2x32 1 := cmpf .olt main_v4 main_v5
  let main_c_1 : IVec S_ 1 := constantI S_ 1 1#1
  let main_v7 : IVec S_ 1 := (fun x v => Host.reduce IntOp.andi x v reducesTo_S2x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_arg8 main_arg9 main_v13 main_v16
-- ==== Kernel.lean ====
abbrev S100000x2 : Shape := ⟨2, ![100000, 2]⟩
abbrev S2x3200000 : Shape := ⟨2, ![2, 3200000]⟩
abbrev S2x32 : Shape := ⟨2, ![2, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S10000x2 : Shape := ⟨2, ![10000, 2]⟩
abbrev S10000x32 : Shape := ⟨2, ![10000, 32]⟩
abbrev S3300000x32 : Shape := ⟨2, ![3300000, 32]⟩
abbrev S1x32 : Shape := ⟨2, ![1, 32]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 91
  | .vmem => 28
  | .smem => 0
  | _ => 0

abbrev bufTy : (tb : Table) → Fin (tcTables nBuf tb) → BufTy
  | .hbm, ⟨0, _⟩ => ⟨S100000x2, .f32⟩
  | .hbm, ⟨1, _⟩ => ⟨S2x3200000, .i32⟩
  | .hbm, ⟨2, _⟩ => ⟨S2x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S100000, .i32⟩
  | .hbm, ⟨15, _⟩ => ⟨S3300000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S100000x32, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x32, .f32⟩
  | .hbm, ⟨60, _⟩ => ⟨S3300000x1, .f32⟩
  | .hbm, ⟨61, _⟩ => ⟨S3300000x32, .f32⟩
  | .hbm, ⟨62, _⟩ => ⟨S3300000x32, .f32⟩
  | .hbm, ⟨63, _⟩ => ⟨S_, .f32⟩
  | .hbm, ⟨64, _⟩ => ⟨S100000x32, .f32⟩
  | .hbm, ⟨65, _⟩ => ⟨S3300000x1, .i32⟩
  | .hbm, ⟨66, _⟩ => ⟨S100000x32, .f32⟩
  | .hbm, ⟨67, _⟩ => ⟨S1x32, .f32⟩
  | .hbm, ⟨68, _⟩ => ⟨S100000x32, .f32⟩
  | .hbm, ⟨69, _⟩ => ⟨S100000x32, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x32, .f32⟩
  | .hbm, ⟨79, _⟩ => ⟨S3300000x1, .f32⟩
  | .hbm, ⟨80, _⟩ => ⟨S3300000x32, .f32⟩
  | .hbm, ⟨81, _⟩ => ⟨S3300000x32, .f32⟩
  | .hbm, ⟨82, _⟩ => ⟨S_, .f32⟩
  | .hbm, ⟨83, _⟩ => ⟨S100000x32, .f32⟩
  | .hbm, ⟨84, _⟩ => ⟨S3300000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S1x32, .f32⟩
  | .hbm, ⟨89, _⟩ => ⟨S1x1, .f32⟩
  | .hbm, ⟨90, _⟩ => ⟨S100000x1, .f32⟩
  | .local _ .vmem, ⟨0, _⟩ => ⟨S10000x2, .f32⟩
  | .local _ .vmem, ⟨1, _⟩ => ⟨S10000x2, .f32⟩
  | .local _ .vmem, ⟨2, _⟩ => ⟨S2x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S32x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S32x32, .f32⟩
  | .local _ .vmem, ⟨23, _⟩ => ⟨S1x32, .f32⟩
  | .local _ .vmem, ⟨24, _⟩ => ⟨S32x1, .f32⟩
  | .local _ .vmem, ⟨25, _⟩ => ⟨S1x1, .f32⟩
  | .local _ .vmem, ⟨26, _⟩ => ⟨S10000x1, .f32⟩
  | .local _ .vmem, ⟨27, _⟩ => ⟨S10000x1, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg4_0 : Ref sig .tc := ⟨.vmem, 25, rfl⟩
abbrev cc4_stg5_0 : Ref sig .tc := ⟨.vmem, 26, rfl⟩
abbrev cc4_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem4_0 : DmaSem sig := 25
abbrev cc4_sem5_0 : DmaSem sig := 26
abbrev cc4_sem5_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x2_S10000x2_0_0 : ∀ a, (![0, 0] : Fin 2 → Nat) a + S10000x2.size a ≤ S10000x2.size a
  h_S10000x2 : 0 < S10000x2.numel
  bitsLt_bf16_f32 : FTy.bits .bf16 < FTy.bits .f32
  inb_S2x32_S2x32_0_0 : ∀ a, (![0, 0] : Fin 2 → Nat) a + S2x32.size a ≤ S2x32.size a
  h_S2x32 : 0 < S2x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  shapeCasts_S1_S1x1 : S1.ShapeCasts S1x1
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x2_S2x32_S10000x32_1_0_0_1_n_n_wf : DotDims.WF S10000x2 S2x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x32_S10000x32_1_0_0_1_n_n_wf : DotDims.WF S10000x32 S32x32 S10000x32 [1] [0] [0] [1] [] []
  dot_S10000x32_S32x1_S10000x1_1_0_0_1_n_n_wf : DotDims.WF S10000x32 S32x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S100000x2.size a
  hwx0_0 : ∀ i : grid0.Coords, EltTy.bits .f32 = 32 ∨ (Rect.block (s := S100000x2) S10000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x32.size a ≤ S2x32.size a
  hwx0_1 : ∀ i : grid0.Coords, EltTy.bits .f32 = 32 ∨ (Rect.block (s := S2x32) S2x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x32.size a ≤ S32x32.size a
  hwx4_1 : ∀ i : grid4.Coords, EltTy.bits .f32 = 32 ∨ (Rect.block (s := S32x32) S32x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x1.size a ≤ S32x1.size a
  hwx4_3 : ∀ i : grid4.Coords, EltTy.bits .f32 = 32 ∨ (Rect.block (s := S32x1) S32x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x1.size a ≤ S100000x1.size a
  hwx4_5 : ∀ i : grid4.Coords, EltTy.bits .f32 = 32 ∨ (Rect.block (s := S100000x1) S10000x1.size (cc4_transform_5 i) (hinb4_5 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x2_S2x32_S10000x32_1_0_0_1_n_n : DotDims S10000x2 S2x32 S10000x32 where
  lhsContracting := [1]
  rhsContracting := [0]
  lhsNonContracting := [0]
  rhsNonContracting := [1]
  lhsBatch := []
  rhsBatch := []
  wf := dot_S10000x2_S2x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

abbrev win0_0 : Pipeline.Window sig grid0 :=
  Pipeline.Window.ofSpec (Memref.whole main_arg0) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S32x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v63) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v64) S10000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x2 : Shape := ⟨2, ![100000, 2]⟩
abbrev S2x3200000 : Shape := ⟨2, ![2, 3200000]⟩
abbrev S2x32 : Shape := ⟨2, ![2, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S100000x32 : Shape := ⟨2, ![100000, 32]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 143
  | .vmem => 0
  | .smem => 0
  | _ => 0

abbrev hbmTy0_0 (i : Nat) : BufTy := match i % 128 with
  | 0 => ⟨S100000x2, .f32⟩
  | 1 => ⟨S2x3200000, .i32⟩
  | 2 => ⟨S2x32, .f32⟩
  | 3 => ⟨S32, .f32⟩
  | 4 => ⟨S32x32, .f32⟩
  | 5 => ⟨S32, .f32⟩
  | 6 => ⟨S32x32, .f32⟩
  | 7 => ⟨S32, .f32⟩
  | 8 => ⟨S32x1, .f32⟩
  | 9 => ⟨S1, .f32⟩
  | 10 => ⟨S1x3200000, .i32⟩
  | 11 => ⟨S3200000, .i32⟩
  | 12 => ⟨S1x3200000, .i32⟩
  | 13 => ⟨S3200000, .i32⟩
  | 14 => ⟨S100000x32, .f32⟩
  | 15 => ⟨S100000, .i32⟩
  | 16 => ⟨S3300000, .i32⟩
  | 17 => ⟨S3300000, .i32⟩
  | 18 => ⟨S_, .f32⟩
  | 19 => ⟨S3300000, .f32⟩
  | 20 => ⟨S_, .f32⟩
  | 21 => ⟨S100000, .f32⟩
  | 22 => ⟨S3300000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S3300000, .i32⟩
  | 34 => ⟨S3300000, .i1⟩
  | 35 => ⟨S_, .i32⟩
  | 36 => ⟨S3300000, .i32⟩
  | 37 => ⟨S3300000, .i32⟩
  | 38 => ⟨S3300000, .i32⟩
  | 39 => ⟨S3300000x1, .i32⟩
  | 40 => ⟨S3300000, .f32⟩
  | 41 => ⟨S_, .i32⟩
  | 42 => ⟨S3300000, .i32⟩
  | 43 => ⟨S3300000, .i1⟩
  | 44 => ⟨S_, .i32⟩
  | 45 => ⟨S3300000, .i32⟩
  | 46 => ⟨S3300000, .i32⟩
  | 47 => ⟨S3300000, .i32⟩
  | 48 => ⟨S3300000x1, .i32⟩
  | 49 => ⟨S3300000, .f32⟩
  | 50 => ⟨S3300000, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000x32, .f32⟩
  | 60 => ⟨S3300000x1, .f32⟩
  | 61 => ⟨S3300000x32, .f32⟩
  | 62 => ⟨S3300000x32, .f32⟩
  | 63 => ⟨S_, .f32⟩
  | 64 => ⟨S100000x32, .f32⟩
  | 65 => ⟨S3300000x1, .i32⟩
  | 66 => ⟨S100000x32, .f32⟩
  | 67 => ⟨S1x32, .f32⟩
  | 68 => ⟨S100000x32, .f32⟩
  | 69 => ⟨S100000x32, .f32⟩
  | 70 => ⟨S_, .f32⟩
  | 71 => ⟨S100000x32, .f32⟩
  | 72 => ⟨S100000x32, .f32⟩
  | 73 => ⟨S100000x32, .f32⟩
  | 74 => ⟨S100000, .i32⟩
  | 75 => ⟨S3300000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x32, .f32⟩
  | 119 => ⟨S3300000x1, .f32⟩
  | 120 => ⟨S3300000x32, .f32⟩
  | 121 => ⟨S3300000x32, .f32⟩
  | 122 => ⟨S_, .f32⟩
  | 123 => ⟨S100000x32, .f32⟩
  | 124 => ⟨S3300000x1, .i32⟩
  | 125 => ⟨S100000x32, .f32⟩
  | 126 => ⟨S1x32, .f32⟩
  | 127 => ⟨S100000x32, .f32⟩
  | _ => ⟨S100000x2, .f32⟩

abbrev hbmTy0_1 (i : Nat) : BufTy := match i % 128 with
  | 0 => ⟨S100000x32, .f32⟩
  | 1 => ⟨S_, .f32⟩
  | 2 => ⟨S100000x32, .f32⟩
  | 3 => ⟨S100000x32, .f32⟩
  | 4 => ⟨S100000x32, .f32⟩
  | 5 => ⟨S1x32, .f32⟩
  | 6 => ⟨S100000x32, .f32⟩
  | 7 => ⟨S100000x32, .f32⟩
  | 8 => ⟨S_, .f32⟩
  | 9 => ⟨S100000x32, .f32⟩
  | 10 => ⟨S100000x32, .f32⟩
  | 11 => ⟨S100000x1, .f32⟩
  | 12 => ⟨S1x1, .f32⟩
  | 13 => ⟨S100000x1, .f32⟩
  | 14 => ⟨S100000x1, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v59 : Ref sig .tc := ⟨.hbm, 90, rfl⟩
abbrev main_c_13 : Ref sig .tc := ⟨.hbm, 91, rfl⟩
abbrev main_v60 : Ref sig .tc := ⟨.hbm, 92, rfl⟩
abbrev main_v61 : Ref sig .tc := ⟨.hbm, 93, rfl⟩
abbrev main_c_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_15 : Ref sig .tc := ⟨.hbm, 100, rfl⟩
abbrev main_v67 : Ref sig .tc := ⟨.hbm, 101, rfl⟩
abbrev main_v68 : Ref sig .tc := ⟨.hbm, 102, rfl⟩
abbrev main_c_16 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_17 : Ref sig .tc := ⟨.hbm, 110, rfl⟩
abbrev main_v75 : Ref sig .tc := ⟨.hbm, 111, rfl⟩
abbrev main_v76 : Ref sig .tc := ⟨.hbm, 112, rfl⟩
abbrev main_c_18 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_19 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_call3_cst : Ref sig .tc := ⟨.hbm, 129, rfl⟩
abbrev main_call3_v0 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_call4_cst : Ref sig .tc := ⟨.hbm, 136, rfl⟩
abbrev main_call4_v0 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x2_S2x32_S100000x32_1_0_0_1_n_n_wf : DotDims.WF S100000x2 S2x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x32_S100000x32_1_0_0_1_n_n_wf : DotDims.WF S100000x32 S32x32 S100000x32 [1] [0] [0] [1] [] []
  dot_S100000x32_S32x1_S100000x1_1_0_0_1_n_n_wf : DotDims.WF S100000x32 S32x1 S100000x1 [1] [0] [0] [1] [] []

variable [Facts₀]

def dot_S100000x2_S2x32_S100000x32_1_0_0_1_n_n : DotDims S100000x2 S2x32 S100000x32 where
  lhsContracting := [1]
  rhsContracting := [0]
  lhsNonContracting := [0]
  rhsNonContracting := [1]
  lhsBatch := []
  rhsBatch := []
  wf := dot_S100000x2_S2x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KRun.lean ====
/-
  The idealized kernel's run with its result named: every weakly fair execution of @main ends with the result array at the
  contents the last segment boundary records for it — the read-out call's output array after its ten write-backs — and the
  argument arrays as launched. It is the run of @main's eleven segments (six stretches of host operations, five calls),
  read at the result's buffer as well as at the arguments'.
-/
import proofs.«142883_j11390253269723_1_alg».proof.Proof.Gen.KernelIdeal.Frame

set_option maxRecDepth 16384

noncomputable section

namespace Cert.KernelIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main: the result array ends at the last boundary's contents of its buffer, the arguments unchanged. -/
theorem run_value : θ_run defs (onTc (τ := τ) (main (F := F))) ⟨m, fun _ => 0, ρ⟩ (fun r => ∀ c : Dev nD,
      r.2.mem ((c.tc : Thread nD τ).loc main_v64) = W11 m ρ c (Proc.devRef .tc main_v64)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v64 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.RunV

end
-- ==== Proof.LibMlpAt.lean ====
/-
  The two-layer perceptron with rectifiers, read at one entry.

  For matrices x : [N, K], wa : [K, D], wb : [D, D] and one-row biases ba, bb : [1, D] the value at (r, q) is
      max (∑ j, max (∑ i, x[r,i] · wa[i,j] + ba[0,j]) 0 · wb[j,q] + bb[0,q]) 0
  on the extended reals. Two spellings of that function occur: the host's (two `dot_general`s, the biases broadcast
  along the rows, the rectifier a maximum with a broadcast zero) and a tile's (two matrix products into a zero
  accumulator with the operands narrowed to bf16 first, the biases broadcast as vectors). At the ideal values a change of
  format is the identity and both products are plain sums over the contracted coordinate, so each spelling reads the
  formula above at every entry; nothing here needs the entries to be finite.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp

open Idealize.ShloMosaic Idealize.ShloMosaic.ValueIdx

/-! ## A plain matrix product's dimension numbers, and its sum -/

/-- The dimension numbers of a plain product [m, k] × [k, n] → [m, n]: contract the left operand's axis 1 with the
    right operand's axis 0. -/
abbrev D2 {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable {m k n : Nat}

/-- The left operand's index at output (a, b) and contracted coordinate c is (a, c). -/
theorem lhsIdx_D2 (w : DotDims.WF ⟨2, ![m, k]⟩ ⟨2, ![k, n]⟩ ⟨2, ![m, n]⟩ [1] [0] [0] [1] [] []) (a : Fin m) (b : Fin n) (c : Fin k) :
    (D2 w).lhsIdx (ix2 a b) ((contrEquiv1 (D2 w) k rfl rfl).symm c) = ix2 a c := by
  have c2 := contrEquiv1_symm_val (D2 w) k rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (c, b). -/
theorem rhsIdx_D2 (w : DotDims.WF ⟨2, ![m, k]⟩ ⟨2, ![k, n]⟩ ⟨2, ![m, n]⟩ [1] [0] [0] [1] [] []) (a : Fin m) (b : Fin n) (c : Fin k) :
    (D2 w).rhsIdx (ix2 a b) ((contrEquiv1 (D2 w) k rfl rfl).symm c) = ix2 c b := by
  have c2 := contrEquiv1_symm_val (D2 w) k rfl rfl c
  funext ax; apply Fin.ext
  match ax with
  | ⟨0, _⟩ => simp [DotDims.rhsIdx]; exact c2
  | ⟨1, _⟩ => simp [DotDims.rhsIdx]; rfl

/-- The host's product at (a, b): the sum over the contracted coordinate of the entries' products. -/
theorem dotGeneral_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (D2 w) prec A B (ix2 a b) = ∑ c : Fin k, A (ix2 a c) * B (ix2 c b) := by
  show FloatOps.dotGeneral _ prec _ A B (ix2 a b) = _
  rw [Ideal.dotGeneral_apply, ← Equiv.sum_comp (contrEquiv1 (D2 w) k rfl rfl).symm]
  refine Finset.sum_congr rfl fun c _ => ?_
  rw [lhsIdx_D2, rhsIdx_D2]

/-- A tile's product into a zero accumulator at (a, b): the same sum. -/
theorem matmul_zero_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (D2 w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (D2 w) k rfl rfl).symm]
  refine Finset.sum_congr rfl fun c _ => ?_
  rw [lhsIdx_D2, rhsIdx_D2]

/-! ## Broadcasts of a one-row bias and of a scalar, at an entry -/

/-- A [1, D] row broadcast along the rows of [N, D] reads, at (r, q), the row at q. -/
theorem bcastRow_at {N D : Nat} {α : Type} (h : (⟨2, ![1, D]⟩ : Shape).BroadcastsInDim ⟨2, ![N, D]⟩ (![0, 1] : Fin 2 → Fin 2))
    (v : (⟨2, ![1, D]⟩ : Shape).Idx → α) (r : Fin N) (q : Fin D) :
    broadcastInDim ⟨2, ![N, D]⟩ (![0, 1] : Fin 2 → Fin 2) h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if D = 1 then 0 else q.val
    split
    · have := q.isLt; omega
    · rfl

/-- A scalar broadcast to [N, D] reads the scalar everywhere. -/
theorem bcastScalar_at {N D : Nat} {α : Type} (h : (⟨0, ![]⟩ : Shape).BroadcastsInDim ⟨2, ![N, D]⟩ (![] : Fin 0 → Fin 2))
    (v : (⟨0, ![]⟩ : Shape).Idx → α) (i : (⟨2, ![N, D]⟩ : Shape).Idx) :
    broadcastInDim ⟨2, ![N, D]⟩ (![] : Fin 0 → Fin 2) h v i = v ix0 :=
  broadcastInDim_apply _ h v i ix0 fun ax => ax.elim0

/-- A [D] vector viewed as its one row [1, D] is the vector broadcast along a new leading unit axis: both read the
    vector's entry i at (0, i). -/
theorem rowCast_eq_bcast {D : Nat} {α : Type} (x : (⟨1, ![D]⟩ : Shape).Idx → α) (h : (⟨1, ![D]⟩ : Shape).ShapeCasts ⟨2, ![1, D]⟩)
    (h' : (⟨1, ![D]⟩ : Shape).BroadcastsInDim ⟨2, ![1, D]⟩ (![1] : Fin 1 → Fin 2)) :
    shapeCast ⟨2, ![1, D]⟩ x h = broadcastInDim ⟨2, ![1, D]⟩ (![1] : Fin 1 → Fin 2) h' x := by
  funext j
  obtain ⟨u, i, rfl⟩ : ∃ (u : Fin 1) (i : Fin D), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if D = 1 then 0 else i.val
    split
    · have := i.isLt; omega
    · rfl

/-! ## The perceptron at an entry -/

/-- The value at (r, q): the second layer's rectified affine map of the first layer's. -/
def mlpVal {N K D : Nat} (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) : Ideal .f32 :=
  max ((∑ j : Fin D, max ((∑ i : Fin K, x (ix2 r i) * wa (ix2 i j)) + ba (ix2 (0 : Fin 1) j)) (Ideal.ofBits .f32 0x00000000#32) * wb (ix2 j q))
    + bb (ix2 (0 : Fin 1) q)) (Ideal.ofBits .f32 0x00000000#32)

/-- The value at row r depends only on row r of x: two inputs with equal rows give equal values. -/
theorem mlpVal_congr_row {N N' K D : Nat} (x : FVec Ideal ⟨2, ![N, K]⟩ .f32) (x' : FVec Ideal ⟨2, ![N', K]⟩ .f32)
    (wa : FVec Ideal ⟨2, ![K, D]⟩ .f32) (ba : FVec Ideal ⟨2, ![1, D]⟩ .f32) (wb : FVec Ideal ⟨2, ![D, D]⟩ .f32) (bb : FVec Ideal ⟨2, ![1, D]⟩ .f32)
    (r : Fin N) (r' : Fin N') (hrow : ∀ i : Fin K, x (ix2 r i) = x' (ix2 r' i)) (q : Fin D) :
    mlpVal x wa ba wb bb r q = mlpVal x' wa ba wb bb r' q := by
  unfold mlpVal
  simp only [hrow]

/-- The host's spelling: two `dot_general`s, the biases broadcast along the rows, each rectifier a maximum with a
    broadcast zero. -/
def mlpHost {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![N, D]⟩ .f32 :=
  maximumf (addf (Host.dotGeneral (D2 wB) none
      (maximumf (addf (Host.dotGeneral (D2 wA) none x wa) (broadcastInDim ⟨2, ![N, D]⟩ (![0, 1] : Fin 2 → Fin 2) hb ba))
        (broadcastInDim ⟨2, ![N, D]⟩ (![] : Fin 0 → Fin 2) hz (constant (F := Ideal) ⟨0, ![]⟩ .f32 0x00000000#32))) wb)
      (broadcastInDim ⟨2, ![N, D]⟩ (![0, 1] : Fin 2 → Fin 2) hb bb))
    (broadcastInDim ⟨2, ![N, D]⟩ (![] : Fin 0 → Fin 2) hz (constant (F := Ideal) ⟨0, ![]⟩ .f32 0x00000000#32))

theorem mlpHost_at {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) :
    mlpHost wA wB hb hz x wa ba wb bb (ix2 r q) = mlpVal x wa ba wb bb r q := by
  unfold mlpHost mlpVal
  rw [maximumf_apply, addf_apply, dotGeneral_at, bcastRow_at, bcastScalar_at, constant_apply]
  refine congrArg (fun s => max (s + bb (ix2 (0 : Fin 1) q)) (Ideal.ofBits .f32 0x00000000#32)) ?_
  refine Finset.sum_congr rfl fun j _ => ?_
  rw [maximumf_apply, addf_apply, dotGeneral_at, bcastRow_at, bcastScalar_at, constant_apply]

/-- The host's spelling with the biases given as vectors [D], each made a row by a broadcast along a new unit axis. -/
def mlpHostV {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) : FVec Ideal ⟨2, ![N, D]⟩ .f32 :=
  mlpHost wA wB hb hz x wa (broadcastInDim ⟨2, ![1, D]⟩ (![1] : Fin 1 → Fin 2) hr ba) wb
    (broadcastInDim ⟨2, ![1, D]⟩ (![1] : Fin 1 → Fin 2) hr bb)

/-- With the biases reshaped to one row instead: the same array. -/
theorem mlpHost_rowCast {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (hc : (⟨1, ![D]⟩ : Shape).ShapeCasts ⟨2, ![1, D]⟩)
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) :
    mlpHost wA wB hb hz x wa (shapeCast ⟨2, ![1, D]⟩ ba hc) wb (shapeCast ⟨2, ![1, D]⟩ bb hc)
      = mlpHostV wA wB hb hz hr x wa ba wb bb := by
  unfold mlpHostV
  rw [rowCast_eq_bcast ba hc hr, rowCast_eq_bcast bb hc hr]

/-- A tile's spelling: the operands narrowed to bf16, two products into a zero accumulator, the biases broadcast as
    vectors, each rectifier a maximum with a splat zero. -/
def mlpTile {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![T, D]⟩ .f32 :=
  maximumf (addf (matmul (D2 wB) none
      (truncf .bf16 (maximumf (addf (matmul (D2 wA) none (truncf .bf16 x hlt) (truncf .bf16 wa hlt) (constant ⟨2, ![T, D]⟩ .f32 0x00000000#32))
          (broadcastTo ⟨2, ![T, D]⟩ ba hb)) (broadcast ⟨2, ![T, D]⟩ (Scalar.ofBits (F := Ideal) .f32 0x00000000#32))) hlt)
      (truncf .bf16 wb hlt) (constant ⟨2, ![T, D]⟩ .f32 0x00000000#32))
      (broadcastTo ⟨2, ![T, D]⟩ bb hb))
    (broadcast ⟨2, ![T, D]⟩ (Scalar.ofBits (F := Ideal) .f32 0x00000000#32))

theorem mlpTile_at {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (p : Fin T) (q : Fin D) :
    mlpTile wA wB hb hlt x wa ba wb bb (ix2 p q) = mlpVal x wa ba wb bb p q := by
  unfold mlpTile mlpVal
  rw [maximumf_apply, addf_apply, matmul_zero_at, broadcastTo_1b_ab_apply, broadcast_apply]
  refine congrArg (fun s => max (s + bb (ix2 (0 : Fin 1) q)) (Ideal.ofBits .f32 0x00000000#32)) ?_
  refine Finset.sum_congr rfl fun j _ => ?_
  rw [truncf_apply, truncf_apply, maximumf_apply, addf_apply, matmul_zero_at, broadcastTo_1b_ab_apply, broadcast_apply]
  refine congrArg (fun s => max (s + ba (ix2 (0 : Fin 1) j)) (Ideal.ofBits .f32 0x00000000#32) * wb (ix2 j q)) ?_
  refine Finset.sum_congr rfl fun i _ => ?_
  rw [truncf_apply, truncf_apply]

end Cert.Mlp

end
-- ==== Proof.Spec.lean ====
/-
  The three dense pieces of the network as whole-array functions on the extended reals, each in the host's spelling,
  and each read at one entry:

    lin  x w        = x · w                                   (a plain matrix product)
    act  a b        = max (a + row b, 0)                      (bias row b : [1, 32] added to every row, then the rectifier)
    head h w1 b1 w2 b2 = max (h · w1 + row b1, 0) · w2 + row b2    (the two-layer read-out, one output column)

  At an entry (r, q) these are sums over the contracted coordinate, the bias entry of column q and a maximum with zero.
  The entry formulas are what a tile of rows of the same computation is compared against.
-/
import proofs.«142883_j11390253269723_1_alg».proof.Proof.LibMlpAt

noncomputable section

open scoped BigOperators

namespace Cert.Spec

open Idealize.ShloMosaic Idealize.ShloMosaic.ValueIdx Cert.Mlp

variable {N K D E : Nat}

/-- The plain product of x : [N, K] and w : [K, D]. -/
def lin (wf : DotDims.WF ⟨2, ![N, K]⟩ ⟨2, ![K, D]⟩ ⟨2, ![N, D]⟩ [1] [0] [0] [1] [] [])
    (x : FVec Ideal ⟨2, ![N, K]⟩ .f32) (w : FVec Ideal ⟨2, ![K, D]⟩ .f32) : FVec Ideal ⟨2, ![N, D]⟩ .f32 :=
  Host.dotGeneral (D2 wf) none x w

theorem lin_at (wf : DotDims.WF ⟨2, ![N, K]⟩ ⟨2, ![K, D]⟩ ⟨2, ![N, D]⟩ [1] [0] [0] [1] [] [])
    (x : FVec Ideal ⟨2, ![N, K]⟩ .f32) (w : FVec Ideal ⟨2, ![K, D]⟩ .f32) (r : Fin N) (q : Fin D) :
    lin wf x w (ix2 r q) = ∑ k : Fin K, x (ix2 r k) * w (ix2 k q) := by
  unfold lin
  exact dotGeneral_at wf none x w r q

/-- The bias row added to every row of a, then the rectifier. -/
def act (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (a : FVec Ideal ⟨2, ![N, D]⟩ .f32) (b : FVec Ideal ⟨2, ![1, D]⟩ .f32) : FVec Ideal ⟨2, ![N, D]⟩ .f32 :=
  maximumf (addf a (broadcastInDim ⟨2, ![N, D]⟩ (![0, 1] : Fin 2 → Fin 2) hb b))
    (broadcastInDim ⟨2, ![N, D]⟩ (![] : Fin 0 → Fin 2) hz (constant (F := Ideal) ⟨0, ![]⟩ .f32 0x00000000#32))

theorem act_at (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (a : FVec Ideal ⟨2, ![N, D]⟩ .f32) (b : FVec Ideal ⟨2, ![1, D]⟩ .f32) (r : Fin N) (q : Fin D) :
    act hb hz a b (ix2 r q) = max (a (ix2 r q) + b (ix2 (0 : Fin 1) q)) (Ideal.ofBits .f32 0x00000000#32) := by
  unfold act
  rw [maximumf_apply, addf_apply, bcastRow_at, bcastScalar_at, constant_apply]

/-- The read-out: a rectified affine layer of width D, then an affine map to E columns. -/
def head (wf1 : DotDims.WF ⟨2, ![N, K]⟩ ⟨2, ![K, D]⟩ ⟨2, ![N, D]⟩ [1] [0] [0] [1] [] [])
    (wf2 : DotDims.WF ⟨2, ![N, D]⟩ ⟨2, ![D, E]⟩ ⟨2, ![N, E]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hb2 : (⟨2, ![1, E]⟩ : Shape).BroadcastsInDim ⟨2, ![N, E]⟩ (![0, 1] : Fin 2 → Fin 2))
    (h : FVec Ideal ⟨2, ![N, K]⟩ .f32) (w1 : FVec Ideal ⟨2, ![K, D]⟩ .f32) (b1 : FVec Ideal ⟨2, ![1, D]⟩ .f32)
    (w2 : FVec Ideal ⟨2, ![D, E]⟩ .f32) (b2 : FVec Ideal ⟨2, ![1, E]⟩ .f32) : FVec Ideal ⟨2, ![N, E]⟩ .f32 :=
  addf (Host.dotGeneral (D2 wf2) none (act hb hz (lin wf1 h w1) b1) w2)
    (broadcastInDim ⟨2, ![N, E]⟩ (![0, 1] : Fin 2 → Fin 2) hb2 b2)

theorem head_at (wf1 : DotDims.WF ⟨2, ![N, K]⟩ ⟨2, ![K, D]⟩ ⟨2, ![N, D]⟩ [1] [0] [0] [1] [] [])
    (wf2 : DotDims.WF ⟨2, ![N, D]⟩ ⟨2, ![D, E]⟩ ⟨2, ![N, E]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hb2 : (⟨2, ![1, E]⟩ : Shape).BroadcastsInDim ⟨2, ![N, E]⟩ (![0, 1] : Fin 2 → Fin 2))
    (h : FVec Ideal ⟨2, ![N, K]⟩ .f32) (w1 : FVec Ideal ⟨2, ![K, D]⟩ .f32) (b1 : FVec Ideal ⟨2, ![1, D]⟩ .f32)
    (w2 : FVec Ideal ⟨2, ![D, E]⟩ .f32) (b2 : FVec Ideal ⟨2, ![1, E]⟩ .f32) (r : Fin N) (q : Fin E) :
    head wf1 wf2 hb hz hb2 h w1 b1 w2 b2 (ix2 r q)
      = (∑ j : Fin D, max ((∑ k : Fin K, h (ix2 r k) * w1 (ix2 k j)) + b1 (ix2 (0 : Fin 1) j)) (Ideal.ofBits .f32 0x00000000#32)
            * w2 (ix2 j q)) + b2 (ix2 (0 : Fin 1) q) := by
  unfold head
  rw [addf_apply, dotGeneral_at, bcastRow_at]
  refine congrArg (fun s => s + b2 (ix2 (0 : Fin 1) q)) ?_
  refine Finset.sum_congr rfl fun j _ => ?_
  rw [act_at, lin_at]

end Cert.Spec

end
-- ==== Proof.Lin0.lean ====
/-
  The matrix-product call number 0 of the program, read as one whole-array function: over its ten row blocks the output array
  ends holding x · w, where x : [100000, 2] and w : [2, 32] are the arrays the call finds in its two operands. A block of
  10000 rows of the product is the product of the same rows of x with the whole of w (narrowing the operands to bf16 keeps
  their ideal values; the product into a zero accumulator is the plain sum over the contracted coordinate), so each
  write-back is a block of the one function, and the ten blocks tile the array.
-/
import proofs.«142883_j11390253269723_1_alg».proof.Proof.Gen.KernelIdeal.Frame
import proofs.«142883_j11390253269723_1_alg».proof.Proof.Spec
import Idealize.ShloMosaic.Lib.ValueIdx
import Idealize.ShloMosaic.Lib.ValueLayout
import Idealize.ShloMosaic.Lib.Pipeline.Value

noncomputable section

open scoped BigOperators
open Idealize.ShloMosaic Idealize.ShloMosaic.TcCoe Idealize.ShloMosaic.ValueIdx Idealize.SL.Sem
open Idealize.ShloMosaic.Pipeline (Dat)

namespace Cert.KernelIdeal.Lin0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- One block's payload at an entry: the sum over the contracted coordinate of the products of the blocks' entries. -/
theorem pay_at (x0 : Vec Ideal S10000x2 .f32) (x1 : Vec Ideal S2x32 .f32) (p : Fin 10000) (q : Fin 32) :
    k0_pay1 (F := Ideal) x0 x1 (ix2 p q) = ∑ k : Fin 2, x0 (ix2 p k) * x1 (ix2 k q) := by
  unfold k0_pay1
  refine (Cert.Mlp.matmul_zero_at dot_S10000x2_S2x32_S10000x32_1_0_0_1_n_n_wf none _ _ p q).trans ?_
  refine Finset.sum_congr rfl fun k _ => ?_
  rw [truncf_apply, truncf_apply]

/-- The block index of each window at a point: the row windows move with the point, the weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The first operand's block at point t is rows 10000 t … 10000 t + 9999 of its array. -/
theorem blk0_apply (c : Dev nD) (t : Fin cfg0.N) (p : Fin 10000) (k : Fin 2) (r : Fin 100000) (hr : r.val = 10000 * t.val + p.val) :
    (iblk0 V c 0 t : Vec Ideal S10000x2 .f32) (ix2 p k) = (V c main_arg0 : S100000x2.Idx → Elt Ideal .f32) (ix2 r k) := by
  obtain ⟨e0, e1, -⟩ := idx_facts t
  unfold iblk0
  rw [View.read_apply]
  show V c main_arg0 _ = V c main_arg0 _
  refine congrArg _ ?_
  funext a
  apply Fin.ext
  match a with
  | ⟨0, _⟩ => show win0_0.index t (0 : Fin 2) * 10000 + 1 * p.val = r.val; rw [e0, hr]; omega
  | ⟨1, _⟩ => show win0_0.index t (1 : Fin 2) * 2 + 1 * k.val = k.val; rw [e1]; omega

/-- The weight operand's block at any point is the whole matrix. -/
theorem blk1_apply (c : Dev nD) (t : Fin cfg0.N) (k : Fin 2) (q : Fin 32) :
    (iblk0 V c 1 t : Vec Ideal S2x32 .f32) (ix2 k q) = (V c main_arg2 : S2x32.Idx → Elt Ideal .f32) (ix2 k q) := by
  obtain ⟨-, -, e2, e3, -⟩ := idx_facts t
  unfold iblk0
  rw [View.read_apply]
  show V c main_arg2 _ = V c main_arg2 _
  refine congrArg _ ?_
  funext a
  apply Fin.ext
  match a with
  | ⟨0, _⟩ => show win0_1.index t (0 : Fin 2) * 2 + 1 * k.val = k.val; rw [e2]; omega
  | ⟨1, _⟩ => show win0_1.index t (1 : Fin 2) * 32 + 1 * q.val = q.val; rw [e3]; omega

variable (wf : DotDims.WF ⟨2, ![100000, 2]⟩ ⟨2, ![2, 32]⟩ ⟨2, ![100000, 32]⟩ [1] [0] [0] [1] [] [])

/-- What point t writes back is block t of the one function. -/
theorem flushed_eq (c : Dev nD) (t : Fin cfg0.N) :
    (dat0 V c).flushed 2 t
      = ((cfg0.win 2).blk t).view.read (Elt Ideal) (Cert.Spec.lin wf (V c main_arg0) (V c main_arg2)) := by
  show (cfg0.win 2).cut (grid0.coords t) ((dat0 V c).after 2 t) = _
  rw [after0_2]
  unfold out0_2
  rw [View.canon_unit_zero hz]
  simp only [View.ld_unit_zero (S := S10000x2) hz, View.ld_unit_zero (S := S2x32) hz]
  funext j
  obtain ⟨p, q, rfl⟩ : ∃ (p : Fin 10000) (q : Fin 32), j = ix2 p q := ⟨j 0, j 1, eq_ix2 j⟩
  obtain ⟨-, -, -, -, e4, e5⟩ := idx_facts t
  have ht : t.val < 10 := t.isLt
  have hr : 10000 * t.val + p.val < 100000 := by have := p.isLt; omega
  have hemb : ((cfg0.win 2).blk t).view.emb (ix2 p q) = (ix2 (⟨10000 * t.val + p.val, hr⟩ : Fin 100000) q : S100000x32.Idx) := by
    funext a
    apply Fin.ext
    match a with
    | ⟨0, _⟩ => show win0_2.index t (0 : Fin 2) * 10000 + 1 * p.val = 10000 * t.val + p.val; rw [e4]; omega
    | ⟨1, _⟩ => show win0_2.index t (1 : Fin 2) * 32 + 1 * q.val = q.val; rw [e5]; omega
  rw [View.read_apply, hemb]
  refine (pay_at _ _ p q).trans ?_
  refine ((Finset.sum_congr rfl fun k _ => ?_).trans (Cert.Spec.lin_at wf _ _ ⟨10000 * t.val + p.val, hr⟩ q).symm)
  rw [blk0_apply V c t p k ⟨10000 * t.val + p.val, hr⟩ rfl, blk1_apply V c t k q]

/-- An index of the array is in point t's block iff each coordinate is in the block's range on its axis. -/
theorem mem_blk (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v30).slice (win0_2.rect t)).set ↔ _
  rw [View.set_slice_whole, Rect.mem_set_unit]
  exact Iff.rfl

/-- Every row lies in the block of the point numbered by its ten-thousands. -/
theorem cover (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 10 := N_0
  let t : Fin cfg0.N := ⟨(i 0).val / 10000, by rw [hN]; omega⟩
  obtain ⟨-, -, -, -, e4, e5⟩ := idx_facts t
  have e4' : win0_2.index t (0 : Fin 2) = (i 0).val / 10000 := e4
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; rw [e4']; omega
  | ⟨1, _⟩ => show win0_2.index t (1 : Fin 2) * 32 ≤ (i 1).val ∧ (i 1).val < win0_2.index t (1 : Fin 2) * 32 + 32; rw [e5]; omega

/-- The output array after the call. -/
theorem final (c : Dev nD) :
    (dat0 V c).arrAt 2 cfg0.N = Cert.Spec.lin wf (V c main_arg0) (V c main_arg2) :=
  (dat0 V c).arrAt_eq_of_cover 2 _ (fun t _ => flushed_eq V wf c t) cover

end Cert.KernelIdeal.Lin0

end
-- ==== Proof.Lin2.lean ====
/-
  The matrix-product call number 2 of the program, read as one whole-array function: over its ten row blocks the output array
  ends holding x · w, where x : [100000, 32] and w : [32, 32] are the arrays the call finds in its two operands. A block of
  10000 rows of the product is the product of the same rows of x with the whole of w (narrowing the operands to bf16 keeps
  their ideal values; the product into a zero accumulator is the plain sum over the contracted coordinate), so each
  write-back is a block of the one function, and the ten blocks tile the array.
-/
import proofs.«142883_j11390253269723_1_alg».proof.Proof.Gen.KernelIdeal.Frame
import proofs.«142883_j11390253269723_1_alg».proof.Proof.Spec
import Idealize.ShloMosaic.Lib.ValueIdx
import Idealize.ShloMosaic.Lib.ValueLayout
import Idealize.ShloMosaic.Lib.Pipeline.Value

noncomputable section

open scoped BigOperators
open Idealize.ShloMosaic Idealize.ShloMosaic.TcCoe Idealize.ShloMosaic.ValueIdx Idealize.SL.Sem
open Idealize.ShloMosaic.Pipeline (Dat)

namespace Cert.KernelIdeal.Lin2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- One block's payload at an entry: the sum over the contracted coordinate of the products of the blocks' entries. -/
theorem pay_at (x0 : Vec Ideal S10000x32 .f32) (x1 : Vec Ideal S32x32 .f32) (p : Fin 10000) (q : Fin 32) :
    k2_pay1 (F := Ideal) x0 x1 (ix2 p q) = ∑ k : Fin 32, x0 (ix2 p k) * x1 (ix2 k q) := by
  unfold k2_pay1
  refine (Cert.Mlp.matmul_zero_at dot_S10000x32_S32x32_S10000x32_1_0_0_1_n_n_wf none _ _ p q).trans ?_
  refine Finset.sum_congr rfl fun k _ => ?_
  rw [truncf_apply, truncf_apply, shapeCast_self]

/-- The block index of each window at a point: the row windows move with the point, the weight window stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The first operand's block at point t is rows 10000 t … 10000 t + 9999 of its array. -/
theorem blk0_apply (c : Dev nD) (t : Fin cfg2.N) (p : Fin 10000) (k : Fin 32) (r : Fin 100000) (hr : r.val = 10000 * t.val + p.val) :
    (iblk2 V c 0 t : Vec Ideal S10000x32 .f32) (ix2 p k) = (V c main_v45 : S100000x32.Idx → Elt Ideal .f32) (ix2 r k) := by
  obtain ⟨e0, e1, -⟩ := idx_facts t
  unfold iblk2
  rw [View.read_apply]
  show V c main_v45 _ = V c main_v45 _
  refine congrArg _ ?_
  funext a
  apply Fin.ext
  match a with
  | ⟨0, _⟩ => show win2_0.index t (0 : Fin 2) * 10000 + 1 * p.val = r.val; rw [e0, hr]; omega
  | ⟨1, _⟩ => show win2_0.index t (1 : Fin 2) * 32 + 1 * k.val = k.val; rw [e1]; omega

/-- The weight operand's block at any point is the whole matrix. -/
theorem blk1_apply (c : Dev nD) (t : Fin cfg2.N) (k : Fin 32) (q : Fin 32) :
    (iblk2 V c 1 t : Vec Ideal S32x32 .f32) (ix2 k q) = (V c main_arg4 : S32x32.Idx → Elt Ideal .f32) (ix2 k q) := by
  obtain ⟨-, -, e2, e3, -⟩ := idx_facts t
  unfold iblk2
  rw [View.read_apply]
  show V c main_arg4 _ = V c main_arg4 _
  refine congrArg _ ?_
  funext a
  apply Fin.ext
  match a with
  | ⟨0, _⟩ => show win2_1.index t (0 : Fin 2) * 32 + 1 * k.val = k.val; rw [e2]; omega
  | ⟨1, _⟩ => show win2_1.index t (1 : Fin 2) * 32 + 1 * q.val = q.val; rw [e3]; omega

variable (wf : DotDims.WF ⟨2, ![100000, 32]⟩ ⟨2, ![32, 32]⟩ ⟨2, ![100000, 32]⟩ [1] [0] [0] [1] [] [])

/-- What point t writes back is block t of the one function. -/
theorem flushed_eq (c : Dev nD) (t : Fin cfg2.N) :
    (dat2 V c).flushed 2 t
      = ((cfg2.win 2).blk t).view.read (Elt Ideal) (Cert.Spec.lin wf (V c main_v45) (V c main_arg4)) := by
  show (cfg2.win 2).cut (grid2.coords t) ((dat2 V c).after 2 t) = _
  rw [after2_2]
  unfold out2_2
  rw [View.canon_unit_zero hz]
  simp only [View.ld_unit_zero (S := S10000x32) hz, View.ld_unit_zero (S := S32x32) hz]
  funext j
  obtain ⟨p, q, rfl⟩ : ∃ (p : Fin 10000) (q : Fin 32), j = ix2 p q := ⟨j 0, j 1, eq_ix2 j⟩
  obtain ⟨-, -, -, -, e4, e5⟩ := idx_facts t
  have ht : t.val < 10 := t.isLt
  have hr : 10000 * t.val + p.val < 100000 := by have := p.isLt; omega
  have hemb : ((cfg2.win 2).blk t).view.emb (ix2 p q) = (ix2 (⟨10000 * t.val + p.val, hr⟩ : Fin 100000) q : S100000x32.Idx) := by
    funext a
    apply Fin.ext
    match a with
    | ⟨0, _⟩ => show win2_2.index t (0 : Fin 2) * 10000 + 1 * p.val = 10000 * t.val + p.val; rw [e4]; omega
    | ⟨1, _⟩ => show win2_2.index t (1 : Fin 2) * 32 + 1 * q.val = q.val; rw [e5]; omega
  rw [View.read_apply, hemb]
  refine (pay_at _ _ p q).trans ?_
  refine ((Finset.sum_congr rfl fun k _ => ?_).trans (Cert.Spec.lin_at wf _ _ ⟨10000 * t.val + p.val, hr⟩ q).symm)
  rw [blk0_apply V c t p k ⟨10000 * t.val + p.val, hr⟩ rfl, blk1_apply V c t k q]

/-- An index of the array is in point t's block iff each coordinate is in the block's range on its axis. -/
theorem mem_blk (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v46).slice (win2_2.rect t)).set ↔ _
  rw [View.set_slice_whole, Rect.mem_set_unit]
  exact Iff.rfl

/-- Every row lies in the block of the point numbered by its ten-thousands. -/
theorem cover (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 10 := N_2
  let t : Fin cfg2.N := ⟨(i 0).val / 10000, by rw [hN]; omega⟩
  obtain ⟨-, -, -, -, e4, e5⟩ := idx_facts t
  have e4' : win2_2.index t (0 : Fin 2) = (i 0).val / 10000 := e4
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; rw [e4']; omega
  | ⟨1, _⟩ => show win2_2.index t (1 : Fin 2) * 32 ≤ (i 1).val ∧ (i 1).val < win2_2.index t (1 : Fin 2) * 32 + 32; rw [e5]; omega

/-- The output array after the call. -/
theorem final (c : Dev nD) :
    (dat2 V c).arrAt 2 cfg2.N = Cert.Spec.lin wf (V c main_v45) (V c main_arg4) :=
  (dat2 V c).arrAt_eq_of_cover 2 _ (fun t _ => flushed_eq V wf c t) cover

end Cert.KernelIdeal.Lin2

end
-- ==== Proof.Act1.lean ====
/-
  The bias-and-rectifier call number 1 of the program, read as one whole-array function: over its ten row blocks the output
  array ends holding max (a + row b, 0), where a : [100000, 32] and b : [1, 32] are the arrays the call finds in its two
  operands. A block of 10000 rows is computed from the same rows of a and from the whole of b, entry by entry, so each
  write-back is a block of the one function, and the ten blocks tile the array.
-/
import proofs.«142883_j11390253269723_1_alg».proof.Proof.Gen.KernelIdeal.Frame
import proofs.«142883_j11390253269723_1_alg».proof.Proof.Spec
import Idealize.ShloMosaic.Lib.ValueIdx
import Idealize.ShloMosaic.Lib.ValueLayout
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Act1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- One block's payload at an entry: the block of a at that entry plus the bias of its column, rectified. -/
theorem pay_at (x0 : Vec Ideal S10000x32 .f32) (x1 : Vec Ideal S1x32 .f32) (p : Fin 10000) (q : Fin 32) :
    k1_pay1 (F := Ideal) x0 x1 (ix2 p q)
      = max (x0 (ix2 p q) + x1 (ix2 (0 : Fin 1) q)) (Ideal.ofBits .f32 0x00000000#32) := by
  unfold k1_pay1
  rw [maximumf_apply, addf_apply, shapeCast_self, shapeCast_self, broadcastTo_1b_ab_apply, broadcast_apply]
  rfl

/-- The block index of each window at a point: the row windows move with the point, the bias window stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The first operand's block at point t is rows 10000 t … 10000 t + 9999 of its array. -/
theorem blk0_apply (c : Dev nD) (t : Fin cfg1.N) (p : Fin 10000) (q : Fin 32) (r : Fin 100000) (hr : r.val = 10000 * t.val + p.val) :
    (iblk1 V c 0 t : Vec Ideal S10000x32 .f32) (ix2 p q) = (V c main_v43 : S100000x32.Idx → Elt Ideal .f32) (ix2 r q) := by
  obtain ⟨e0, e1, -⟩ := idx_facts t
  unfold iblk1
  rw [View.read_apply]
  show V c main_v43 _ = V c main_v43 _
  refine congrArg _ ?_
  funext a
  apply Fin.ext
  match a with
  | ⟨0, _⟩ => show win1_0.index t (0 : Fin 2) * 10000 + 1 * p.val = r.val; rw [e0, hr]; omega
  | ⟨1, _⟩ => show win1_0.index t (1 : Fin 2) * 32 + 1 * q.val = q.val; rw [e1]; omega

/-- The bias operand's block at any point is the whole bias row. -/
theorem blk1_apply (c : Dev nD) (t : Fin cfg1.N) (q : Fin 32) :
    (iblk1 V c 1 t : Vec Ideal S1x32 .f32) (ix2 (0 : Fin 1) q) = (V c main_v44 : S1x32.Idx → Elt Ideal .f32) (ix2 (0 : Fin 1) q) := by
  obtain ⟨-, -, e2, e3, -⟩ := idx_facts t
  unfold iblk1
  rw [View.read_apply]
  show V c main_v44 _ = V c main_v44 _
  refine congrArg _ ?_
  funext a
  apply Fin.ext
  match a with
  | ⟨0, _⟩ => show win1_1.index t (0 : Fin 2) * 1 + 1 * 0 = 0; rw [e2]
  | ⟨1, _⟩ => show win1_1.index t (1 : Fin 2) * 32 + 1 * q.val = q.val; rw [e3]; omega

variable (hb : (⟨2, ![1, 32]⟩ : Shape).BroadcastsInDim ⟨2, ![100000, 32]⟩ (![0, 1] : Fin 2 → Fin 2))
  (hzz : (⟨0, ![]⟩ : Shape).BroadcastsInDim ⟨2, ![100000, 32]⟩ (![] : Fin 0 → Fin 2))

/-- What point t writes back is block t of the one function. -/
theorem flushed_eq (c : Dev nD) (t : Fin cfg1.N) :
    (dat1 V c).flushed 2 t
      = ((cfg1.win 2).blk t).view.read (Elt Ideal) (Cert.Spec.act hb hzz (V c main_v43) (V c main_v44)) := by
  show (cfg1.win 2).cut (grid1.coords t) ((dat1 V c).after 2 t) = _
  rw [after1_2]
  unfold out1_2
  rw [View.canon_unit_zero hz]
  simp only [View.ld_unit_zero (S := S10000x32) hz, View.ld_unit_zero (S := S1x32) hz]
  funext j
  obtain ⟨p, q, rfl⟩ : ∃ (p : Fin 10000) (q : Fin 32), j = ix2 p q := ⟨j 0, j 1, eq_ix2 j⟩
  obtain ⟨-, -, -, -, e4, e5⟩ := idx_facts t
  have ht : t.val < 10 := t.isLt
  have hr : 10000 * t.val + p.val < 100000 := by have := p.isLt; omega
  have hemb : ((cfg1.win 2).blk t).view.emb (ix2 p q) = (ix2 (⟨10000 * t.val + p.val, hr⟩ : Fin 100000) q : S100000x32.Idx) := by
    funext a
    apply Fin.ext
    match a with
    | ⟨0, _⟩ => show win1_2.index t (0 : Fin 2) * 10000 + 1 * p.val = 10000 * t.val + p.val; rw [e4]; omega
    | ⟨1, _⟩ => show win1_2.index t (1 : Fin 2) * 32 + 1 * q.val = q.val; rw [e5]; omega
  rw [View.read_apply, hemb]
  refine (pay_at _ _ p q).trans ?_
  rw [blk0_apply V c t p q ⟨10000 * t.val + p.val, hr⟩ rfl, blk1_apply V c t q]
  exact (Cert.Spec.act_at hb hzz _ _ _ q).symm

/-- An index of the array is in point t's block iff each coordinate is in the block's range on its axis. -/
theorem mem_blk (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v45).slice (win1_2.rect t)).set ↔ _
  rw [View.set_slice_whole, Rect.mem_set_unit]
  exact Iff.rfl

/-- Every row lies in the block of the point numbered by its ten-thousands. -/
theorem cover (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 10 := N_1
  let t : Fin cfg1.N := ⟨(i 0).val / 10000, by rw [hN]; omega⟩
  obtain ⟨-, -, -, -, e4, e5⟩ := idx_facts t
  have e4' : win1_2.index t (0 : Fin 2) = (i 0).val / 10000 := e4
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; rw [e4']; omega
  | ⟨1, _⟩ => show win1_2.index t (1 : Fin 2) * 32 ≤ (i 1).val ∧ (i 1).val < win1_2.index t (1 : Fin 2) * 32 + 32; rw [e5]; omega

/-- The output array after the call. -/
theorem final (c : Dev nD) :
    (dat1 V c).arrAt 2 cfg1.N = Cert.Spec.act hb hzz (V c main_v43) (V c main_v44) :=
  (dat1 V c).arrAt_eq_of_cover 2 _ (fun t _ => flushed_eq V hb hzz c t) cover

end Cert.KernelIdeal.Act1

end
-- ==== Proof.Act3.lean ====
/-
  The bias-and-rectifier call number 3 of the program, read as one whole-array function: over its ten row blocks the output
  array ends holding max (a + row b, 0), where a : [100000, 32] and b : [1, 32] are the arrays the call finds in its two
  operands. A block of 10000 rows is computed from the same rows of a and from the whole of b, entry by entry, so each
  write-back is a block of the one function, and the ten blocks tile the array.
-/
import proofs.«142883_j11390253269723_1_alg».proof.Proof.Gen.KernelIdeal.Frame
import proofs.«142883_j11390253269723_1_alg».proof.Proof.Spec
import Idealize.ShloMosaic.Lib.ValueIdx
import Idealize.ShloMosaic.Lib.ValueLayout
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Act3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- One block's payload at an entry: the block of a at that entry plus the bias of its column, rectified. -/
theorem pay_at (x0 : Vec Ideal S10000x32 .f32) (x1 : Vec Ideal S1x32 .f32) (p : Fin 10000) (q : Fin 32) :
    k3_pay1 (F := Ideal) x0 x1 (ix2 p q)
      = max (x0 (ix2 p q) + x1 (ix2 (0 : Fin 1) q)) (Ideal.ofBits .f32 0x00000000#32) := by
  unfold k3_pay1
  rw [maximumf_apply, addf_apply, shapeCast_self, shapeCast_self, broadcastTo_1b_ab_apply, broadcast_apply]
  rfl

/-- The block index of each window at a point: the row windows move with the point, the bias window stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The first operand's block at point t is rows 10000 t … 10000 t + 9999 of its array. -/
theorem blk0_apply (c : Dev nD) (t : Fin cfg3.N) (p : Fin 10000) (q : Fin 32) (r : Fin 100000) (hr : r.val = 10000 * t.val + p.val) :
    (iblk3 V c 0 t : Vec Ideal S10000x32 .f32) (ix2 p q) = (V c main_v59 : S100000x32.Idx → Elt Ideal .f32) (ix2 r q) := by
  obtain ⟨e0, e1, -⟩ := idx_facts t
  unfold iblk3
  rw [View.read_apply]
  show V c main_v59 _ = V c main_v59 _
  refine congrArg _ ?_
  funext a
  apply Fin.ext
  match a with
  | ⟨0, _⟩ => show win3_0.index t (0 : Fin 2) * 10000 + 1 * p.val = r.val; rw [e0, hr]; omega
  | ⟨1, _⟩ => show win3_0.index t (1 : Fin 2) * 32 + 1 * q.val = q.val; rw [e1]; omega

/-- The bias operand's block at any point is the whole bias row. -/
theorem blk1_apply (c : Dev nD) (t : Fin cfg3.N) (q : Fin 32) :
    (iblk3 V c 1 t : Vec Ideal S1x32 .f32) (ix2 (0 : Fin 1) q) = (V c main_v60 : S1x32.Idx → Elt Ideal .f32) (ix2 (0 : Fin 1) q) := by
  obtain ⟨-, -, e2, e3, -⟩ := idx_facts t
  unfold iblk3
  rw [View.read_apply]
  show V c main_v60 _ = V c main_v60 _
  refine congrArg _ ?_
  funext a
  apply Fin.ext
  match a with
  | ⟨0, _⟩ => show win3_1.index t (0 : Fin 2) * 1 + 1 * 0 = 0; rw [e2]
  | ⟨1, _⟩ => show win3_1.index t (1 : Fin 2) * 32 + 1 * q.val = q.val; rw [e3]; omega

variable (hb : (⟨2, ![1, 32]⟩ : Shape).BroadcastsInDim ⟨2, ![100000, 32]⟩ (![0, 1] : Fin 2 → Fin 2))
  (hzz : (⟨0, ![]⟩ : Shape).BroadcastsInDim ⟨2, ![100000, 32]⟩ (![] : Fin 0 → Fin 2))

/-- What point t writes back is block t of the one function. -/
theorem flushed_eq (c : Dev nD) (t : Fin cfg3.N) :
    (dat3 V c).flushed 2 t
      = ((cfg3.win 2).blk t).view.read (Elt Ideal) (Cert.Spec.act hb hzz (V c main_v59) (V c main_v60)) := by
  show (cfg3.win 2).cut (grid3.coords t) ((dat3 V c).after 2 t) = _
  rw [after3_2]
  unfold out3_2
  rw [View.canon_unit_zero hz]
  simp only [View.ld_unit_zero (S := S10000x32) hz, View.ld_unit_zero (S := S1x32) hz]
  funext j
  obtain ⟨p, q, rfl⟩ : ∃ (p : Fin 10000) (q : Fin 32), j = ix2 p q := ⟨j 0, j 1, eq_ix2 j⟩
  obtain ⟨-, -, -, -, e4, e5⟩ := idx_facts t
  have ht : t.val < 10 := t.isLt
  have hr : 10000 * t.val + p.val < 100000 := by have := p.isLt; omega
  have hemb : ((cfg3.win 2).blk t).view.emb (ix2 p q) = (ix2 (⟨10000 * t.val + p.val, hr⟩ : Fin 100000) q : S100000x32.Idx) := by
    funext a
    apply Fin.ext
    match a with
    | ⟨0, _⟩ => show win3_2.index t (0 : Fin 2) * 10000 + 1 * p.val = 10000 * t.val + p.val; rw [e4]; omega
    | ⟨1, _⟩ => show win3_2.index t (1 : Fin 2) * 32 + 1 * q.val = q.val; rw [e5]; omega
  rw [View.read_apply, hemb]
  refine (pay_at _ _ p q).trans ?_
  rw [blk0_apply V c t p q ⟨10000 * t.val + p.val, hr⟩ rfl, blk1_apply V c t q]
  exact (Cert.Spec.act_at hb hzz _ _ _ q).symm

/-- An index of the array is in point t's block iff each coordinate is in the block's range on its axis. -/
theorem mem_blk (t : Fin cfg3.N) (i : S100000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v61).slice (win3_2.rect t)).set ↔ _
  rw [View.set_slice_whole, Rect.mem_set_unit]
  exact Iff.rfl

/-- Every row lies in the block of the point numbered by its ten-thousands. -/
theorem cover (i : S100000x32.Idx) : ∃ t : Fin cfg3.N, (cfg3.win 2).flush t = true ∧ i ∈ ((cfg3.win 2).blk t).view.set := by
  have hi0 : (i 0).val < 100000 := (i 0).isLt
  have hi1 : (i 1).val < 32 := (i 1).isLt
  have hN : cfg3.N = 10 := N_3
  let t : Fin cfg3.N := ⟨(i 0).val / 10000, by rw [hN]; omega⟩
  obtain ⟨-, -, -, -, e4, e5⟩ := idx_facts t
  have e4' : win3_2.index t (0 : Fin 2) = (i 0).val / 10000 := e4
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; rw [e4']; omega
  | ⟨1, _⟩ => show win3_2.index t (1 : Fin 2) * 32 ≤ (i 1).val ∧ (i 1).val < win3_2.index t (1 : Fin 2) * 32 + 32; rw [e5]; omega

/-- The output array after the call. -/
theorem final (c : Dev nD) :
    (dat3 V c).arrAt 2 cfg3.N = Cert.Spec.act hb hzz (V c main_v59) (V c main_v60) :=
  (dat3 V c).arrAt_eq_of_cover 2 _ (fun t _ => flushed_eq V hb hzz c t) cover

end Cert.KernelIdeal.Act3

end
-- ==== Proof.Head4.lean ====
/-
  The read-out call (number 4) of the program, read as one whole-array function: over its ten row blocks the output column
  ends holding  max (h · w1 + row b1, 0) · w2 + row b2,  where h : [100000, 32], w1 : [32, 32], b1 : [1, 32], w2 : [32, 1] and
  b2 : [1, 1] are the arrays the call finds in its five operands. A block of 10000 rows of the result depends on the same
  rows of h and on the whole of the four small operands (narrowing to bf16 keeps the ideal values; each product into a zero
  accumulator is the plain sum over its contracted coordinate), so each write-back is a block of the one function, and
  the ten blocks tile the array.
-/
import proofs.«142883_j11390253269723_1_alg».proof.Proof.Gen.KernelIdeal.Frame
import proofs.«142883_j11390253269723_1_alg».proof.Proof.Spec
import Idealize.ShloMosaic.Lib.ValueIdx
import Idealize.ShloMosaic.Lib.ValueLayout
import Idealize.ShloMosaic.Lib.Pipeline.Value

noncomputable section

open scoped BigOperators
open Idealize.ShloMosaic Idealize.ShloMosaic.TcCoe Idealize.ShloMosaic.ValueIdx Idealize.SL.Sem
open Idealize.ShloMosaic.Pipeline (Dat)

namespace Cert.KernelIdeal.Head4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- One block's payload at an entry. -/
theorem pay_at (x0 : Vec Ideal S10000x32 .f32) (x1 : Vec Ideal S32x32 .f32) (x2 : Vec Ideal S1x32 .f32) (x3 : Vec Ideal S32x1 .f32)
    (x4 : Vec Ideal S1x1 .f32) (p : Fin 10000) (q : Fin 1) :
    k4_pay1 (F := Ideal) x0 x1 x2 x3 x4 (ix2 p q)
      = (∑ j : Fin 32, max ((∑ k : Fin 32, x0 (ix2 p k) * x1 (ix2 k j)) + x2 (ix2 (0 : Fin 1) j)) (Ideal.ofBits .f32 0x00000000#32)
            * x3 (ix2 j q)) + x4 (ix2 (0 : Fin 1) q) := by
  unfold k4_pay1
  simp only [shapeCast_self]
  rw [addf_apply, broadcastTo_1b_ab_apply]
  refine congrArg (fun s => s + x4 (ix2 (0 : Fin 1) q)) ?_
  refine (Cert.Mlp.matmul_zero_at dot_S10000x32_S32x1_S10000x1_1_0_0_1_n_n_wf none _ _ p q).trans ?_
  refine Finset.sum_congr rfl fun j _ => ?_
  rw [truncf_apply, truncf_apply, maximumf_apply, addf_apply, broadcastTo_1b_ab_apply, broadcast_apply]
  refine congrArg (fun s => max (s + x2 (ix2 (0 : Fin 1) j)) (Ideal.ofBits .f32 0x00000000#32) * x3 (ix2 j q)) ?_
  refine (Cert.Mlp.matmul_zero_at dot_S10000x32_S32x32_S10000x32_1_0_0_1_n_n_wf none _ _ p j).trans ?_
  refine Finset.sum_congr rfl fun k _ => ?_
  rw [truncf_apply, truncf_apply]

/-- The block index of each window at a point: the row windows move with the point, the four small windows stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The first operand's block at point t is rows 10000 t … 10000 t + 9999 of its array. -/
theorem blk0_apply (c : Dev nD) (t : Fin cfg4.N) (p : Fin 10000) (k : Fin 32) (r : Fin 100000) (hr : r.val = 10000 * t.val + p.val) :
    (iblk4 V c 0 t : Vec Ideal S10000x32 .f32) (ix2 p k) = (V c main_v61 : S100000x32.Idx → Elt Ideal .f32) (ix2 r k) := by
  obtain ⟨e0, e1, -⟩ := idx_facts t
  unfold iblk4
  rw [View.read_apply]
  show V c main_v61 _ = V c main_v61 _
  refine congrArg _ ?_
  funext a
  apply Fin.ext
  match a with
  | ⟨0, _⟩ => show win4_0.index t (0 : Fin 2) * 10000 + 1 * p.val = r.val; rw [e0, hr]; omega
  | ⟨1, _⟩ => show win4_0.index t (1 : Fin 2) * 32 + 1 * k.val = k.val; rw [e1]; omega

/-- Each small operand's block at any point is the whole operand. -/
theorem blk1_apply (c : Dev nD) (t : Fin cfg4.N) (k : Fin 32) (j : Fin 32) :
    (iblk4 V c 1 t : Vec Ideal S32x32 .f32) (ix2 k j) = (V c main_arg6 : S32x32.Idx → Elt Ideal .f32) (ix2 k j) := by
  obtain ⟨-, -, e2, e3, -⟩ := idx_facts t
  unfold iblk4
  rw [View.read_apply]
  show V c main_arg6 _ = V c main_arg6 _
  refine congrArg _ ?_
  funext a
  apply Fin.ext
  match a with
  | ⟨0, _⟩ => show win4_1.index t (0 : Fin 2) * 32 + 1 * k.val = k.val; rw [e2]; omega
  | ⟨1, _⟩ => show win4_1.index t (1 : Fin 2) * 32 + 1 * j.val = j.val; rw [e3]; omega

theorem blk2_apply (c : Dev nD) (t : Fin cfg4.N) (j : Fin 32) :
    (iblk4 V c 2 t : Vec Ideal S1x32 .f32) (ix2 (0 : Fin 1) j) = (V c main_v62 : S1x32.Idx → Elt Ideal .f32) (ix2 (0 : Fin 1) j) := by
  obtain ⟨-, -, -, -, e4, e5, -⟩ := idx_facts t
  unfold iblk4
  rw [View.read_apply]
  show V c main_v62 _ = V c main_v62 _
  refine congrArg _ ?_
  funext a
  apply Fin.ext
  match a with
  | ⟨0, _⟩ => show win4_2.index t (0 : Fin 2) * 1 + 1 * 0 = 0; rw [e4]
  | ⟨1, _⟩ => show win4_2.index t (1 : Fin 2) * 32 + 1 * j.val = j.val; rw [e5]; omega

theorem blk3_apply (c : Dev nD) (t : Fin cfg4.N) (j : Fin 32) (q : Fin 1) :
    (iblk4 V c 3 t : Vec Ideal S32x1 .f32) (ix2 j q) = (V c main_arg8 : S32x1.Idx → Elt Ideal .f32) (ix2 j q) := by
  obtain ⟨-, -, -, -, -, -, e6, e7, -⟩ := idx_facts t
  unfold iblk4
  rw [View.read_apply]
  show V c main_arg8 _ = V c main_arg8 _
  refine congrArg _ ?_
  funext a
  apply Fin.ext
  match a with
  | ⟨0, _⟩ => show win4_3.index t (0 : Fin 2) * 32 + 1 * j.val = j.val; rw [e6]; omega
  | ⟨1, _⟩ => show win4_3.index t (1 : Fin 2) * 1 + 1 * q.val = q.val; rw [e7]; omega

theorem blk4_apply (c : Dev nD) (t : Fin cfg4.N) (q : Fin 1) :
    (iblk4 V c 4 t : Vec Ideal S1x1 .f32) (ix2 (0 : Fin 1) q) = (V c main_v63 : S1x1.Idx → Elt Ideal .f32) (ix2 (0 : Fin 1) q) := by
  obtain ⟨-, -, -, -, -, -, -, -, e8, e9, -⟩ := idx_facts t
  unfold iblk4
  rw [View.read_apply]
  show V c main_v63 _ = V c main_v63 _
  refine congrArg _ ?_
  funext a
  apply Fin.ext
  match a with
  | ⟨0, _⟩ => show win4_4.index t (0 : Fin 2) * 1 + 1 * 0 = 0; rw [e8]
  | ⟨1, _⟩ => show win4_4.index t (1 : Fin 2) * 1 + 1 * q.val = q.val; rw [e9]; omega

variable (wf1 : DotDims.WF ⟨2, ![100000, 32]⟩ ⟨2, ![32, 32]⟩ ⟨2, ![100000, 32]⟩ [1] [0] [0] [1] [] [])
  (wf2 : DotDims.WF ⟨2, ![100000, 32]⟩ ⟨2, ![32, 1]⟩ ⟨2, ![100000, 1]⟩ [1] [0] [0] [1] [] [])
  (hb : (⟨2, ![1, 32]⟩ : Shape).BroadcastsInDim ⟨2, ![100000, 32]⟩ (![0, 1] : Fin 2 → Fin 2))
  (hzz : (⟨0, ![]⟩ : Shape).BroadcastsInDim ⟨2, ![100000, 32]⟩ (![] : Fin 0 → Fin 2))
  (hb2 : (⟨2, ![1, 1]⟩ : Shape).BroadcastsInDim ⟨2, ![100000, 1]⟩ (![0, 1] : Fin 2 → Fin 2))

/-- What point t writes back is block t of the one function. -/
theorem flushed_eq (c : Dev nD) (t : Fin cfg4.N) :
    (dat4 V c).flushed 5 t
      = ((cfg4.win 5).blk t).view.read (Elt Ideal)
          (Cert.Spec.head wf1 wf2 hb hzz hb2 (V c main_v61) (V c main_arg6) (V c main_v62) (V c main_arg8) (V c main_v63)) := by
  show (cfg4.win 5).cut (grid4.coords t) ((dat4 V c).after 5 t) = _
  rw [after4_5]
  unfold out4_5
  rw [View.canon_unit_zero hz]
  simp only [View.ld_unit_zero (S := S10000x32) hz, View.ld_unit_zero (S := S32x32) hz, View.ld_unit_zero (S := S1x32) hz,
    View.ld_unit_zero (S := S32x1) hz, View.ld_unit_zero (S := S1x1) hz]
  funext j
  obtain ⟨p, q, rfl⟩ : ∃ (p : Fin 10000) (q : Fin 1), j = ix2 p q := ⟨j 0, j 1, eq_ix2 j⟩
  obtain ⟨-, -, -, -, -, -, -, -, -, -, e10, e11⟩ := idx_facts t
  have ht : t.val < 10 := t.isLt
  have hr : 10000 * t.val + p.val < 100000 := by have := p.isLt; omega
  have hemb : ((cfg4.win 5).blk t).view.emb (ix2 p q) = (ix2 (⟨10000 * t.val + p.val, hr⟩ : Fin 100000) q : S100000x1.Idx) := by
    funext a
    apply Fin.ext
    match a with
    | ⟨0, _⟩ => show win4_5.index t (0 : Fin 2) * 10000 + 1 * p.val = 10000 * t.val + p.val; rw [e10]; omega
    | ⟨1, _⟩ => show win4_5.index t (1 : Fin 2) * 1 + 1 * q.val = q.val; rw [e11]; omega
  rw [View.read_apply, hemb]
  refine (pay_at _ _ _ _ _ p q).trans ?_
  refine Eq.trans ?_ (Cert.Spec.head_at wf1 wf2 hb hzz hb2 _ _ _ _ _ ⟨10000 * t.val + p.val, hr⟩ q).symm
  rw [blk4_apply V c t q]
  refine congrArg (fun s => s + (V c main_v63 : S1x1.Idx → Elt Ideal .f32) (ix2 (0 : Fin 1) q)) ?_
  refine Finset.sum_congr rfl fun j _ => ?_
  rw [blk2_apply V c t j, blk3_apply V c t j q]
  refine congrArg (fun s => max (s + (V c main_v62 : S1x32.Idx → Elt Ideal .f32) (ix2 (0 : Fin 1) j)) (Ideal.ofBits .f32 0x00000000#32)
    * (V c main_arg8 : S32x1.Idx → Elt Ideal .f32) (ix2 j q)) ?_
  refine Finset.sum_congr rfl fun k _ => ?_
  rw [blk0_apply V c t p k ⟨10000 * t.val + p.val, hr⟩ rfl, blk1_apply V c t k j]

/-- An index of the array is in point t's block iff each coordinate is in the block's range on its axis. -/
theorem mem_blk (t : Fin cfg4.N) (i : S100000x1.Idx) :
    i ∈ ((cfg4.win 5).blk t).view.set ↔ ∀ a : Fin 2, win4_5.index t a * S10000x1.size a ≤ (i a).val ∧ (i a).val < win4_5.index t a * S10000x1.size a + S10000x1.size a := by
  show i ∈ ((View.whole main_v64).slice (win4_5.rect t)).set ↔ _
  rw [View.set_slice_whole, Rect.mem_set_unit]
  exact Iff.rfl

/-- Every row lies in the block of the point numbered by its ten-thousands. -/
theorem cover (i : S100000x1.Idx) : ∃ t : Fin cfg4.N, (cfg4.win 5).flush t = true ∧ i ∈ ((cfg4.win 5).blk t).view.set := by
  have hi0 : (i 0).val < 100000 := (i 0).isLt
  have hi1 : (i 1).val < 1 := (i 1).isLt
  have hN : cfg4.N = 10 := N_4
  let t : Fin cfg4.N := ⟨(i 0).val / 10000, by rw [hN]; omega⟩
  obtain ⟨-, -, -, -, -, -, -, -, -, -, e10, e11⟩ := idx_facts t
  have e10' : win4_5.index t (0 : Fin 2) = (i 0).val / 10000 := e10
  refine ⟨t, flush4_5 t, ?_⟩
  rw [mem_blk]
  intro a
  match a with
  | ⟨0, _⟩ => show win4_5.index t (0 : Fin 2) * 10000 ≤ (i 0).val ∧ (i 0).val < win4_5.index t (0 : Fin 2) * 10000 + 10000; rw [e10']; omega
  | ⟨1, _⟩ => show win4_5.index t (1 : Fin 2) * 1 ≤ (i 1).val ∧ (i 1).val < win4_5.index t (1 : Fin 2) * 1 + 1; rw [e11]; omega

/-- The output array after the call. -/
theorem final (c : Dev nD) :
    (dat4 V c).arrAt 5 cfg4.N
      = Cert.Spec.head wf1 wf2 hb hzz hb2 (V c main_v61) (V c main_arg6) (V c main_v62) (V c main_arg8) (V c main_v63) :=
  (dat4 V c).arrAt_eq_of_cover 5 _ (fun t _ => flushed_eq V wf1 wf2 hb hzz hb2 c t) cover

end Cert.KernelIdeal.Head4

end
-- ==== Proof.HostSpec.lean ====
/-
  The graph part of the network, in the host's spelling, as functions of the edge table e : i32[2, 3200000] — shared, operation
  for operation, by both programs — and the whole network over it.

    srcI e, dstI e : the source and the destination row of e, each followed by the self loops 0 … 99999        [3300000]
    deg e          : for each node, the number of edges landing on it (a scatter-add of ones over dstI)         [100000]
    dinv e         : deg^(-1/2) where deg > 0, else 0                                                          [100000]
    wrap v         : a negative index moved up by 100000 (the gather's index normalisation)
    norm e         : per edge, dinv at its source times dinv at its destination                                [3300000]
    agg e xw       : the rows of xw gathered at the sources, scaled per edge by norm, scatter-added at the
                     destinations                                                                              [100000, 32]
    net …          : two layers  max (agg e (h · W) + row b, 0)  and the read-out  max (h · Wf1 + row bf1, 0) · Wf2 + row bf2.

  The reference's result, as its run states it, is `net` of the arguments (`res_eq`): the same term, folded.
-/
import proofs.«142883_j11390253269723_1_alg».proof.Proof.Gen.ReferenceIdeal
import proofs.«142883_j11390253269723_1_alg».proof.Proof.RefRun
import proofs.«142883_j11390253269723_1_alg».proof.Proof.Spec

noncomputable section

namespace Cert.ReferenceIdeal.Net

open Cert.ReferenceIdeal Idealize.ShloMosaic Idealize.ShloMosaic.TcCoe Idealize.SL.Sem
open Cert.ReferenceIdeal.Facts₀ Cert.ReferenceIdeal.Facts

def srcI (e : (⟨S2x3200000, .i32⟩ : BufTy).Contents (Elt Ideal)) : (⟨S3300000, .i32⟩ : BufTy).Contents (Elt Ideal) :=
  (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0)

def dstI (e : (⟨S2x3200000, .i32⟩ : BufTy).Contents (Elt Ideal)) : (⟨S3300000, .i32⟩ : BufTy).Contents (Elt Ideal) :=
  (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)

def deg (e : (⟨S2x3200000, .i32⟩ : BufTy).Contents (Elt Ideal)) : FVec Ideal S100000 .f32 :=
  (Host.scatterAdd (F := Ideal) scatter_S100000_S3300000x1_S3300000_n_0_0_1 (broadcastInDim S100000 ![] bcast_S_S100000 (constant (F := Ideal) S_ .f32 0x00000000#32)) (broadcastInDim S3300000x1 ![0] bcast_S3300000_S3300000x1_0 (dstI e)) (broadcastInDim S3300000 ![] bcast_S_S3300000 (constant (F := Ideal) S_ .f32 0x3F800000#32)))

def dinv (e : (⟨S2x3200000, .i32⟩ : BufTy).Contents (Elt Ideal)) : FVec Ideal S100000 .f32 :=
  (select (cmpf (F := Ideal) .ogt (deg e) (broadcastInDim S100000 ![] bcast_S_S100000 (constant (F := Ideal) S_ .f32 0x00000000#32))) (Host.rsqrt (F := Ideal) (deg e)) (broadcastInDim S100000 ![] bcast_S_S100000 (id (constant (F := Ideal) S_ .f32 0x00000000#32))))

def wrap (v : (⟨S3300000, .i32⟩ : BufTy).Contents (Elt Ideal)) : (⟨S3300000, .i32⟩ : BufTy).Contents (Elt Ideal) :=
  (select (cmpi .slt v (broadcastInDim S3300000 ![] bcast_S_S3300000 (constantI S_ 32 0#32))) (addi v (broadcastInDim S3300000 ![] bcast_S_S3300000 (constantI S_ 32 100000#32))) v)

def norm (e : (⟨S2x3200000, .i32⟩ : BufTy).Contents (Elt Ideal)) : FVec Ideal S3300000 .f32 :=
  (mulf (F := Ideal) (Host.gather gather_S100000_S3300000x1_S3300000_n_0_n_n_0_1_1 (dinv e) (broadcastInDim S3300000x1 ![0] bcast_S3300000_S3300000x1_0 (wrap (srcI e)))) (Host.gather gather_S100000_S3300000x1_S3300000_n_0_n_n_0_1_1 (dinv e) (broadcastInDim S3300000x1 ![0] bcast_S3300000_S3300000x1_0 (wrap (dstI e)))))

def agg (e : (⟨S2x3200000, .i32⟩ : BufTy).Contents (Elt Ideal)) (xw : FVec Ideal S100000x32 .f32) : FVec Ideal S100000x32 .f32 :=
  (Host.scatterAdd (F := Ideal) scatter_S100000x32_S3300000x1_S3300000x32_1_0_0_1 (broadcastInDim S100000x32 ![] bcast_S_S100000x32 (constant (F := Ideal) S_ .f32 0x00000000#32)) (broadcastInDim S3300000x1 ![0] bcast_S3300000_S3300000x1_0 (dstI e)) (mulf (F := Ideal) (Host.gather gather_S100000x32_S3300000x1_S3300000x32_1_0_n_n_0_1_132 xw (broadcastInDim S3300000x1 ![0] bcast_S3300000_S3300000x1_0 (wrap (srcI e)))) (broadcastInDim S3300000x32 ![0, 1] bcast_S3300000x1_S3300000x32_0_1 (broadcastInDim S3300000x1 ![0] bcast_S3300000_S3300000x1_0 (norm e)))))

/-- A vector [32] as its one row [1, 32]. -/
def row (b : FVec Ideal S32 .f32) : FVec Ideal S1x32 .f32 :=
  broadcastInDim S1x32 ![1] bcast_S32_S1x32_1 b

/-- A vector [1] as its one row [1, 1]. -/
def row1 (b : FVec Ideal S1 .f32) : FVec Ideal S1x1 .f32 :=
  broadcastInDim S1x1 ![1] bcast_S1_S1x1_1 b

/-- One graph layer: the product with W, the aggregation over the edges, the bias, the rectifier. -/
def layer {K : Nat} (wf : DotDims.WF ⟨2, ![100000, K]⟩ ⟨2, ![K, 32]⟩ ⟨2, ![100000, 32]⟩ [1] [0] [0] [1] [] [])
    (e : (⟨S2x3200000, .i32⟩ : BufTy).Contents (Elt Ideal)) (h : FVec Ideal ⟨2, ![100000, K]⟩ .f32) (w : FVec Ideal ⟨2, ![K, 32]⟩ .f32)
    (b : FVec Ideal S32 .f32) : FVec Ideal ⟨2, ![100000, 32]⟩ .f32 :=
  Cert.Spec.act bcast_S1x32_S100000x32_0_1 bcast_S_S100000x32 (agg e (Cert.Spec.lin wf h w)) (row b)

/-- The whole network. -/
def net (e : (⟨S2x3200000, .i32⟩ : BufTy).Contents (Elt Ideal)) (x : FVec Ideal S100000x2 .f32) (W1 : FVec Ideal S2x32 .f32) (b1 : FVec Ideal S32 .f32)
    (W2 : FVec Ideal S32x32 .f32) (b2 : FVec Ideal S32 .f32) (Wf1 : FVec Ideal S32x32 .f32) (bf1 : FVec Ideal S32 .f32)
    (Wf2 : FVec Ideal S32x1 .f32) (bf2 : FVec Ideal S1 .f32) : FVec Ideal S100000x1 .f32 :=
  Cert.Spec.head dot_S100000x32_S32x32_S100000x32_1_0_0_1_n_n_wf dot_S100000x32_S32x1_S100000x1_1_0_0_1_n_n_wf
    bcast_S1x32_S100000x32_0_1 bcast_S_S100000x32 bcast_S1x1_S100000x1_0_1
    (layer dot_S100000x32_S32x32_S100000x32_1_0_0_1_n_n_wf e
      (layer dot_S100000x2_S2x32_S100000x32_1_0_0_1_n_n_wf e x W1 b1) W2 b2)
    Wf1 (row bf1) Wf2 (row1 bf2)

set_option maxRecDepth 8192 in
/-- The reference's result term is the network of its arguments. -/
theorem res_eq (m : (ℓ : Loc nD τ sig) → Buf (Elt Ideal) ℓ) (c : Dev nD) :
    Cert.ReferenceIdeal.ValueP.res_main_v100 (F := Ideal) m c
      = net (m ((c.tc : Thread nD τ).loc main_arg1)) (m ((c.tc : Thread nD τ).loc main_arg0))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.ValueP.res_main_v100 net layer Cert.Spec.head Cert.Spec.act Cert.Spec.lin agg norm dinv deg row row1
  rfl

end Cert.ReferenceIdeal.Net

end
-- ==== Proof.KValue.lean ====
/-
  The idealized kernel's result, read through its eleven segments: the contents of every buffer a later segment reads,
  at each segment boundary, as a function of the launch memory.

  Before the first call the host has built, from the edge table, the index vectors with self loops, and the per-edge
  weights (`srcI`, `dstI`, `norm`); no later segment writes them or the arguments. Each matrix-product call leaves
  x · w (modules Lin0, Lin2), each host stretch between calls gathers, scales and scatter-adds those rows (`agg`) and
  reshapes a bias to one row, each bias call leaves the rectified sum (Act1, Act3), and the read-out call leaves the
  network's output (Head4). Composed, the result buffer ends at `net` of the arguments, the same function the reference's
  run states.
-/
import proofs.«142883_j11390253269723_1_alg».proof.Proof.Gen.KernelIdeal.Frame
import proofs.«142883_j11390253269723_1_alg».proof.Proof.Lin0
import proofs.«142883_j11390253269723_1_alg».proof.Proof.Lin2
import proofs.«142883_j11390253269723_1_alg».proof.Proof.Act1
import proofs.«142883_j11390253269723_1_alg».proof.Proof.Act3
import proofs.«142883_j11390253269723_1_alg».proof.Proof.Head4
import proofs.«142883_j11390253269723_1_alg».proof.Proof.HostSpec

set_option maxRecDepth 16384

noncomputable section

open Idealize.ShloMosaic Idealize.ShloMosaic.TcCoe Idealize.SL.Sem
open Idealize.ShloMosaic.StableHlo (after_cons after_nil)

namespace Cert.KernelIdeal.KVal

open Cert.KernelIdeal Cert.KernelIdeal.Gen Idealize.ShloMosaic.StableHlo

variable (m : (ℓ : Loc nD τ sig) → Buf (Elt Ideal) ℓ) (ρ : Dev nD → PrngReg) (c : Dev nD)

theorem s3_v5 : W3 m ρ c (Proc.devRef .tc main_v5) = Cert.ReferenceIdeal.Net.srcI (m ((c.tc : Thread nD τ).loc main_arg1)) := by
  show StableHlo.after hostOps0_2 (StableHlo.after hostOps0_1 (StableHlo.after hostOps0 (W0 m ρ c))) (Proc.devRef .tc main_v5) = _
  after_results_simp <;> rfl

theorem s3_v6 : W3 m ρ c (Proc.devRef .tc main_v6) = Cert.ReferenceIdeal.Net.dstI (m ((c.tc : Thread nD τ).loc main_arg1)) := by
  show StableHlo.after hostOps0_2 (StableHlo.after hostOps0_1 (StableHlo.after hostOps0 (W0 m ρ c))) (Proc.devRef .tc main_v6) = _
  after_results_simp <;> rfl

/-! ### The graph quantities, built before the first call -/

theorem s1_v5 : StableHlo.after hostOps0 (W0 m ρ c) (Proc.devRef .tc main_v5) = Cert.ReferenceIdeal.Net.srcI (m ((c.tc : Thread nD τ).loc main_arg1)) := by
  after_results_simp <;> rfl

theorem s1_v6 : StableHlo.after hostOps0 (W0 m ρ c) (Proc.devRef .tc main_v6) = Cert.ReferenceIdeal.Net.dstI (m ((c.tc : Thread nD τ).loc main_arg1)) := by
  after_results_simp <;> rfl

theorem s1_v10 : StableHlo.after hostOps0 (W0 m ρ c) (Proc.devRef .tc main_v10) = Cert.ReferenceIdeal.Net.deg (m ((c.tc : Thread nD τ).loc main_arg1)) := by
  after_results_simp <;> rfl

theorem s1_v12 : StableHlo.after hostOps0 (W0 m ρ c) (Proc.devRef .tc main_v12) = cmpf (F := Ideal) .ogt (Cert.ReferenceIdeal.Net.deg (m ((c.tc : Thread nD τ).loc main_arg1))) (broadcastInDim Cert.ReferenceIdeal.S100000 ![] Cert.ReferenceIdeal.Facts₀.bcast_S_S100000 (constant (F := Ideal) Cert.ReferenceIdeal.S_ .f32 0x00000000#32)) := by
  after_results_simp <;> rfl

theorem s1_v13 : StableHlo.after hostOps0 (W0 m ρ c) (Proc.devRef .tc main_v13) = Host.rsqrt (F := Ideal) (Cert.ReferenceIdeal.Net.deg (m ((c.tc : Thread nD τ).loc main_arg1))) := by
  after_results_simp <;> rfl

theorem s1_cst2 : StableHlo.after hostOps0 (W0 m ρ c) (Proc.devRef .tc main_cst_2) = constant (F := Ideal) Cert.ReferenceIdeal.S_ .f32 0x00000000#32 := by
  after_results_simp <;> rfl

/-- The inverse square roots of the degrees, through the three operations of the outlined `where`. -/
theorem s2_v14 : W2 m ρ c (Proc.devRef .tc main_v14) = Cert.ReferenceIdeal.Net.dinv (m ((c.tc : Thread nD τ).loc main_arg1)) := by
  show StableHlo.after hostOps0_1 (StableHlo.after hostOps0 (W0 m ρ c)) (Proc.devRef .tc main_v14) = _
  have h12 := s1_v12 m ρ c
  have h13 := s1_v13 m ρ c
  have hc := s1_cst2 m ρ c
  generalize StableHlo.after hostOps0 (W0 m ρ c) = U at h12 h13 hc ⊢
  after_results_simp
  rw [h12, h13, hc]
  -- the outlined function's buffers are read through transports along equations that hold by computation
  simp only [TRef.toBuf, TRef.ofBuf]
  repeat rw [cast_eq]
  rfl

theorem s2_v5 : W2 m ρ c (Proc.devRef .tc main_v5) = Cert.ReferenceIdeal.Net.srcI (m ((c.tc : Thread nD τ).loc main_arg1)) := by
  show StableHlo.after hostOps0_1 (StableHlo.after hostOps0 (W0 m ρ c)) (Proc.devRef .tc main_v5) = _
  have h := s1_v5 m ρ c
  generalize StableHlo.after hostOps0 (W0 m ρ c) = U at h ⊢
  after_results_simp
  exact h

theorem s2_v6 : W2 m ρ c (Proc.devRef .tc main_v6) = Cert.ReferenceIdeal.Net.dstI (m ((c.tc : Thread nD τ).loc main_arg1)) := by
  show StableHlo.after hostOps0_1 (StableHlo.after hostOps0 (W0 m ρ c)) (Proc.devRef .tc main_v6) = _
  have h := s1_v6 m ρ c
  generalize StableHlo.after hostOps0 (W0 m ρ c) = U at h ⊢
  after_results_simp
  exact h

/-- The per-edge weights. -/
theorem s3_v29 : W3 m ρ c (Proc.devRef .tc main_v29) = Cert.ReferenceIdeal.Net.norm (m ((c.tc : Thread nD τ).loc main_arg1)) := by
  show StableHlo.after hostOps0_2 (W2 m ρ c) (Proc.devRef .tc main_v29) = _
  have h14 := s2_v14 m ρ c
  have h5 := s2_v5 m ρ c
  have h6 := s2_v6 m ρ c
  generalize W2 m ρ c = U at h14 h5 h6 ⊢
  after_results_simp
  rw [h14, h5, h6]
  rfl

theorem s3_arg0 : W3 m ρ c (Proc.devRef .tc main_arg0) = (m ((c.tc : Thread nD τ).loc main_arg0)) := by
  show StableHlo.after hostOps0_2 (StableHlo.after hostOps0_1 (StableHlo.after hostOps0 (W0 m ρ c))) (Proc.devRef .tc main_arg0) = _
  after_results_simp <;> rfl

theorem s3_arg2 : W3 m ρ c (Proc.devRef .tc main_arg2) = (m ((c.tc : Thread nD τ).loc main_arg2)) := by
  show StableHlo.after hostOps0_2 (StableHlo.after hostOps0_1 (StableHlo.after hostOps0 (W0 m ρ c))) (Proc.devRef .tc main_arg2) = _
  after_results_simp <;> rfl

theorem s3_arg3 : W3 m ρ c (Proc.devRef .tc main_arg3) = (m ((c.tc : Thread nD τ).loc main_arg3)) := by
  show StableHlo.after hostOps0_2 (StableHlo.after hostOps0_1 (StableHlo.after hostOps0 (W0 m ρ c))) (Proc.devRef .tc main_arg3) = _
  after_results_simp <;> rfl

theorem s3_arg4 : W3 m ρ c (Proc.devRef .tc main_arg4) = (m ((c.tc : Thread nD τ).loc main_arg4)) := by
  show StableHlo.after hostOps0_2 (StableHlo.after hostOps0_1 (StableHlo.after hostOps0 (W0 m ρ c))) (Proc.devRef .tc main_arg4) = _
  after_results_simp <;> rfl

theorem s3_arg5 : W3 m ρ c (Proc.devRef .tc main_arg5) = (m ((c.tc : Thread nD τ).loc main_arg5)) := by
  show StableHlo.after hostOps0_2 (StableHlo.after hostOps0_1 (StableHlo.after hostOps0 (W0 m ρ c))) (Proc.devRef .tc main_arg5) = _
  after_results_simp <;> rfl

theorem s3_arg6 : W3 m ρ c (Proc.devRef .tc main_arg6) = (m ((c.tc : Thread nD τ).loc main_arg6)) := by
  show StableHlo.after hostOps0_2 (StableHlo.after hostOps0_1 (StableHlo.after hostOps0 (W0 m ρ c))) (Proc.devRef .tc main_arg6) = _
  after_results_simp <;> rfl

theorem s3_arg7 : W3 m ρ c (Proc.devRef .tc main_arg7) = (m ((c.tc : Thread nD τ).loc main_arg7)) := by
  show StableHlo.after hostOps0_2 (StableHlo.after hostOps0_1 (StableHlo.after hostOps0 (W0 m ρ c))) (Proc.devRef .tc main_arg7) = _
  after_results_simp <;> rfl

theorem s3_arg8 : W3 m ρ c (Proc.devRef .tc main_arg8) = (m ((c.tc : Thread nD τ).loc main_arg8)) := by
  show StableHlo.after hostOps0_2 (StableHlo.after hostOps0_1 (StableHlo.after hostOps0 (W0 m ρ c))) (Proc.devRef .tc main_arg8) = _
  after_results_simp <;> rfl

theorem s3_arg9 : W3 m ρ c (Proc.devRef .tc main_arg9) = (m ((c.tc : Thread nD τ).loc main_arg9)) := by
  show StableHlo.after hostOps0_2 (StableHlo.after hostOps0_1 (StableHlo.after hostOps0 (W0 m ρ c))) (Proc.devRef .tc main_arg9) = _
  after_results_simp <;> rfl

theorem s4_v30 : W4 m ρ c (Proc.devRef .tc main_v30) = (Cert.Spec.lin Cert.ReferenceIdeal.Facts₀.dot_S100000x2_S2x32_S100000x32_1_0_0_1_n_n_wf (m ((c.tc : Thread nD τ).loc main_arg0)) (m ((c.tc : Thread nD τ).loc main_arg2))) :=
  (W4_arr m ρ c 2).trans ((Cert.KernelIdeal.Lin0.final (V3 m ρ) Cert.ReferenceIdeal.Facts₀.dot_S100000x2_S2x32_S100000x32_1_0_0_1_n_n_wf c).trans (by
    show Cert.Spec.lin Cert.ReferenceIdeal.Facts₀.dot_S100000x2_S2x32_S100000x32_1_0_0_1_n_n_wf (W3 m ρ c (Proc.devRef .tc main_arg0)) (W3 m ρ c (Proc.devRef .tc main_arg2)) = _
    rw [s3_arg0 m ρ c, s3_arg2 m ρ c]))

theorem s4_v5 : W4 m ρ c (Proc.devRef .tc main_v5) = Cert.ReferenceIdeal.Net.srcI (m ((c.tc : Thread nD τ).loc main_arg1)) :=
  (W4_of_ne m ρ c main_v5 (by decide)).trans (s3_v5 m ρ c)

theorem s4_v6 : W4 m ρ c (Proc.devRef .tc main_v6) = Cert.ReferenceIdeal.Net.dstI (m ((c.tc : Thread nD τ).loc main_arg1)) :=
  (W4_of_ne m ρ c main_v6 (by decide)).trans (s3_v6 m ρ c)

theorem s4_v29 : W4 m ρ c (Proc.devRef .tc main_v29) = Cert.ReferenceIdeal.Net.norm (m ((c.tc : Thread nD τ).loc main_arg1)) :=
  (W4_of_ne m ρ c main_v29 (by decide)).trans (s3_v29 m ρ c)

theorem s4_arg3 : W4 m ρ c (Proc.devRef .tc main_arg3) = (m ((c.tc : Thread nD τ).loc main_arg3)) :=
  (W4_of_ne m ρ c main_arg3 (by decide)).trans (s3_arg3 m ρ c)

theorem s4_arg4 : W4 m ρ c (Proc.devRef .tc main_arg4) = (m ((c.tc : Thread nD τ).loc main_arg4)) :=
  (W4_of_ne m ρ c main_arg4 (by decide)).trans (s3_arg4 m ρ c)

theorem s4_arg5 : W4 m ρ c (Proc.devRef .tc main_arg5) = (m ((c.tc : Thread nD τ).loc main_arg5)) :=
  (W4_of_ne m ρ c main_arg5 (by decide)).trans (s3_arg5 m ρ c)

theorem s4_arg6 : W4 m ρ c (Proc.devRef .tc main_arg6) = (m ((c.tc : Thread nD τ).loc main_arg6)) :=
  (W4_of_ne m ρ c main_arg6 (by decide)).trans (s3_arg6 m ρ c)

theorem s4_arg7 : W4 m ρ c (Proc.devRef .tc main_arg7) = (m ((c.tc : Thread nD τ).loc main_arg7)) :=
  (W4_of_ne m ρ c main_arg7 (by decide)).trans (s3_arg7 m ρ c)

theorem s4_arg8 : W4 m ρ c (Proc.devRef .tc main_arg8) = (m ((c.tc : Thread nD τ).loc main_arg8)) :=
  (W4_of_ne m ρ c main_arg8 (by decide)).trans (s3_arg8 m ρ c)

theorem s4_arg9 : W4 m ρ c (Proc.devRef .tc main_arg9) = (m ((c.tc : Thread nD τ).loc main_arg9)) :=
  (W4_of_ne m ρ c main_arg9 (by decide)).trans (s3_arg9 m ρ c)

theorem s5_v43 : W5 m ρ c (Proc.devRef .tc main_v43) = Cert.ReferenceIdeal.Net.agg (m ((c.tc : Thread nD τ).loc main_arg1)) (Cert.Spec.lin Cert.ReferenceIdeal.Facts₀.dot_S100000x2_S2x32_S100000x32_1_0_0_1_n_n_wf (m ((c.tc : Thread nD τ).loc main_arg0)) (m ((c.tc : Thread nD τ).loc main_arg2))) := by
  show StableHlo.after hostOps1 (W4 m ρ c) (Proc.devRef .tc main_v43) = _
  after_results_simp
  rw [s4_v30 m ρ c, s4_v5 m ρ c, s4_v6 m ρ c, s4_v29 m ρ c]
  rfl

theorem s5_v44 : W5 m ρ c (Proc.devRef .tc main_v44) = Cert.ReferenceIdeal.Net.row (m ((c.tc : Thread nD τ).loc main_arg3)) := by
  show StableHlo.after hostOps1 (W4 m ρ c) (Proc.devRef .tc main_v44) = _
  after_results_simp
  rw [s4_arg3 m ρ c]
  exact Cert.Mlp.rowCast_eq_bcast _ _ _

theorem s5_v5 : W5 m ρ c (Proc.devRef .tc main_v5) = Cert.ReferenceIdeal.Net.srcI (m ((c.tc : Thread nD τ).loc main_arg1)) := by
  show StableHlo.after hostOps1 (W4 m ρ c) (Proc.devRef .tc main_v5) = _
  after_results_simp
  exact s4_v5 m ρ c

theorem s5_v6 : W5 m ρ c (Proc.devRef .tc main_v6) = Cert.ReferenceIdeal.Net.dstI (m ((c.tc : Thread nD τ).loc main_arg1)) := by
  show StableHlo.after hostOps1 (W4 m ρ c) (Proc.devRef .tc main_v6) = _
  after_results_simp
  exact s4_v6 m ρ c

theorem s5_v29 : W5 m ρ c (Proc.devRef .tc main_v29) = Cert.ReferenceIdeal.Net.norm (m ((c.tc : Thread nD τ).loc main_arg1)) := by
  show StableHlo.after hostOps1 (W4 m ρ c) (Proc.devRef .tc main_v29) = _
  after_results_simp
  exact s4_v29 m ρ c

theorem s5_arg4 : W5 m ρ c (Proc.devRef .tc main_arg4) = (m ((c.tc : Thread nD τ).loc main_arg4)) := by
  show StableHlo.after hostOps1 (W4 m ρ c) (Proc.devRef .tc main_arg4) = _
  after_results_simp
  exact s4_arg4 m ρ c

theorem s5_arg5 : W5 m ρ c (Proc.devRef .tc main_arg5) = (m ((c.tc : Thread nD τ).loc main_arg5)) := by
  show StableHlo.after hostOps1 (W4 m ρ c) (Proc.devRef .tc main_arg5) = _
  after_results_simp
  exact s4_arg5 m ρ c

theorem s5_arg6 : W5 m ρ c (Proc.devRef .tc main_arg6) = (m ((c.tc : Thread nD τ).loc main_arg6)) := by
  show StableHlo.after hostOps1 (W4 m ρ c) (Proc.devRef .tc main_arg6) = _
  after_results_simp
  exact s4_arg6 m ρ c

theorem s5_arg7 : W5 m ρ c (Proc.devRef .tc main_arg7) = (m ((c.tc : Thread nD τ).loc main_arg7)) := by
  show StableHlo.after hostOps1 (W4 m ρ c) (Proc.devRef .tc main_arg7) = _
  after_results_simp
  exact s4_arg7 m ρ c

theorem s5_arg8 : W5 m ρ c (Proc.devRef .tc main_arg8) = (m ((c.tc : Thread nD τ).loc main_arg8)) := by
  show StableHlo.after hostOps1 (W4 m ρ c) (Proc.devRef .tc main_arg8) = _
  after_results_simp
  exact s4_arg8 m ρ c

theorem s5_arg9 : W5 m ρ c (Proc.devRef .tc main_arg9) = (m ((c.tc : Thread nD τ).loc main_arg9)) := by
  show StableHlo.after hostOps1 (W4 m ρ c) (Proc.devRef .tc main_arg9) = _
  after_results_simp
  exact s4_arg9 m ρ c

theorem s6_v45 : W6 m ρ c (Proc.devRef .tc main_v45) = (Cert.ReferenceIdeal.Net.layer Cert.ReferenceIdeal.Facts₀.dot_S100000x2_S2x32_S100000x32_1_0_0_1_n_n_wf (m ((c.tc : Thread nD τ).loc main_arg1)) (m ((c.tc : Thread nD τ).loc main_arg0)) (m ((c.tc : Thread nD τ).loc main_arg2)) (m ((c.tc : Thread nD τ).loc main_arg3))) :=
  (W6_arr m ρ c 2).trans ((Cert.KernelIdeal.Act1.final (V5 m ρ) Cert.ReferenceIdeal.Facts₀.bcast_S1x32_S100000x32_0_1 Cert.ReferenceIdeal.Facts₀.bcast_S_S100000x32 c).trans (by
    show Cert.Spec.act Cert.ReferenceIdeal.Facts₀.bcast_S1x32_S100000x32_0_1 Cert.ReferenceIdeal.Facts₀.bcast_S_S100000x32 (W5 m ρ c (Proc.devRef .tc main_v43)) (W5 m ρ c (Proc.devRef .tc main_v44)) = _
    rw [s5_v43 m ρ c, s5_v44 m ρ c]
    rfl))

theorem s6_v5 : W6 m ρ c (Proc.devRef .tc main_v5) = Cert.ReferenceIdeal.Net.srcI (m ((c.tc : Thread nD τ).loc main_arg1)) :=
  (W6_of_ne m ρ c main_v5 (by decide)).trans (s5_v5 m ρ c)

theorem s6_v6 : W6 m ρ c (Proc.devRef .tc main_v6) = Cert.ReferenceIdeal.Net.dstI (m ((c.tc : Thread nD τ).loc main_arg1)) :=
  (W6_of_ne m ρ c main_v6 (by decide)).trans (s5_v6 m ρ c)

theorem s6_v29 : W6 m ρ c (Proc.devRef .tc main_v29) = Cert.ReferenceIdeal.Net.norm (m ((c.tc : Thread nD τ).loc main_arg1)) :=
  (W6_of_ne m ρ c main_v29 (by decide)).trans (s5_v29 m ρ c)

theorem s6_arg4 : W6 m ρ c (Proc.devRef .tc main_arg4) = (m ((c.tc : Thread nD τ).loc main_arg4)) :=
  (W6_of_ne m ρ c main_arg4 (by decide)).trans (s5_arg4 m ρ c)

theorem s6_arg5 : W6 m ρ c (Proc.devRef .tc main_arg5) = (m ((c.tc : Thread nD τ).loc main_arg5)) :=
  (W6_of_ne m ρ c main_arg5 (by decide)).trans (s5_arg5 m ρ c)

theorem s6_arg6 : W6 m ρ c (Proc.devRef .tc main_arg6) = (m ((c.tc : Thread nD τ).loc main_arg6)) :=
  (W6_of_ne m ρ c main_arg6 (by decide)).trans (s5_arg6 m ρ c)

theorem s6_arg7 : W6 m ρ c (Proc.devRef .tc main_arg7) = (m ((c.tc : Thread nD τ).loc main_arg7)) :=
  (W6_of_ne m ρ c main_arg7 (by decide)).trans (s5_arg7 m ρ c)

theorem s6_arg8 : W6 m ρ c (Proc.devRef .tc main_arg8) = (m ((c.tc : Thread nD τ).loc main_arg8)) :=
  (W6_of_ne m ρ c main_arg8 (by decide)).trans (s5_arg8 m ρ c)

theorem s6_arg9 : W6 m ρ c (Proc.devRef .tc main_arg9) = (m ((c.tc : Thread nD τ).loc main_arg9)) :=
  (W6_of_ne m ρ c main_arg9 (by decide)).trans (s5_arg9 m ρ c)

theorem s7_v46 : W7 m ρ c (Proc.devRef .tc main_v46) = (Cert.Spec.lin Cert.ReferenceIdeal.Facts₀.dot_S100000x32_S32x32_S100000x32_1_0_0_1_n_n_wf (Cert.ReferenceIdeal.Net.layer Cert.ReferenceIdeal.Facts₀.dot_S100000x2_S2x32_S100000x32_1_0_0_1_n_n_wf (m ((c.tc : Thread nD τ).loc main_arg1)) (m ((c.tc : Thread nD τ).loc main_arg0)) (m ((c.tc : Thread nD τ).loc main_arg2)) (m ((c.tc : Thread nD τ).loc main_arg3))) (m ((c.tc : Thread nD τ).loc main_arg4))) :=
  (W7_arr m ρ c 2).trans ((Cert.KernelIdeal.Lin2.final (V6 m ρ) Cert.ReferenceIdeal.Facts₀.dot_S100000x32_S32x32_S100000x32_1_0_0_1_n_n_wf c).trans (by
    show Cert.Spec.lin Cert.ReferenceIdeal.Facts₀.dot_S100000x32_S32x32_S100000x32_1_0_0_1_n_n_wf (W6 m ρ c (Proc.devRef .tc main_v45)) (W6 m ρ c (Proc.devRef .tc main_arg4)) = _
    rw [s6_v45 m ρ c, s6_arg4 m ρ c]))

theorem s7_v5 : W7 m ρ c (Proc.devRef .tc main_v5) = Cert.ReferenceIdeal.Net.srcI (m ((c.tc : Thread nD τ).loc main_arg1)) :=
  (W7_of_ne m ρ c main_v5 (by decide)).trans (s6_v5 m ρ c)

theorem s7_v6 : W7 m ρ c (Proc.devRef .tc main_v6) = Cert.ReferenceIdeal.Net.dstI (m ((c.tc : Thread nD τ).loc main_arg1)) :=
  (W7_of_ne m ρ c main_v6 (by decide)).trans (s6_v6 m ρ c)

theorem s7_v29 : W7 m ρ c (Proc.devRef .tc main_v29) = Cert.ReferenceIdeal.Net.norm (m ((c.tc : Thread nD τ).loc main_arg1)) :=
  (W7_of_ne m ρ c main_v29 (by decide)).trans (s6_v29 m ρ c)

theorem s7_arg5 : W7 m ρ c (Proc.devRef .tc main_arg5) = (m ((c.tc : Thread nD τ).loc main_arg5)) :=
  (W7_of_ne m ρ c main_arg5 (by decide)).trans (s6_arg5 m ρ c)

theorem s7_arg6 : W7 m ρ c (Proc.devRef .tc main_arg6) = (m ((c.tc : Thread nD τ).loc main_arg6)) :=
  (W7_of_ne m ρ c main_arg6 (by decide)).trans (s6_arg6 m ρ c)

theorem s7_arg7 : W7 m ρ c (Proc.devRef .tc main_arg7) = (m ((c.tc : Thread nD τ).loc main_arg7)) :=
  (W7_of_ne m ρ c main_arg7 (by decide)).trans (s6_arg7 m ρ c)

theorem s7_arg8 : W7 m ρ c (Proc.devRef .tc main_arg8) = (m ((c.tc : Thread nD τ).loc main_arg8)) :=
  (W7_of_ne m ρ c main_arg8 (by decide)).trans (s6_arg8 m ρ c)

theorem s7_arg9 : W7 m ρ c (Proc.devRef .tc main_arg9) = (m ((c.tc : Thread nD τ).loc main_arg9)) :=
  (W7_of_ne m ρ c main_arg9 (by decide)).trans (s6_arg9 m ρ c)

theorem s8_v59 : W8 m ρ c (Proc.devRef .tc main_v59) = Cert.ReferenceIdeal.Net.agg (m ((c.tc : Thread nD τ).loc main_arg1)) (Cert.Spec.lin Cert.ReferenceIdeal.Facts₀.dot_S100000x32_S32x32_S100000x32_1_0_0_1_n_n_wf (Cert.ReferenceIdeal.Net.layer Cert.ReferenceIdeal.Facts₀.dot_S100000x2_S2x32_S100000x32_1_0_0_1_n_n_wf (m ((c.tc : Thread nD τ).loc main_arg1)) (m ((c.tc : Thread nD τ).loc main_arg0)) (m ((c.tc : Thread nD τ).loc main_arg2)) (m ((c.tc : Thread nD τ).loc main_arg3))) (m ((c.tc : Thread nD τ).loc main_arg4))) := by
  show StableHlo.after hostOps3 (W7 m ρ c) (Proc.devRef .tc main_v59) = _
  after_results_simp
  rw [s7_v46 m ρ c, s7_v5 m ρ c, s7_v6 m ρ c, s7_v29 m ρ c]
  rfl

theorem s8_v60 : W8 m ρ c (Proc.devRef .tc main_v60) = Cert.ReferenceIdeal.Net.row (m ((c.tc : Thread nD τ).loc main_arg5)) := by
  show StableHlo.after hostOps3 (W7 m ρ c) (Proc.devRef .tc main_v60) = _
  after_results_simp
  rw [s7_arg5 m ρ c]
  exact Cert.Mlp.rowCast_eq_bcast _ _ _

theorem s8_arg6 : W8 m ρ c (Proc.devRef .tc main_arg6) = (m ((c.tc : Thread nD τ).loc main_arg6)) := by
  show StableHlo.after hostOps3 (W7 m ρ c) (Proc.devRef .tc main_arg6) = _
  after_results_simp
  exact s7_arg6 m ρ c

theorem s8_arg7 : W8 m ρ c (Proc.devRef .tc main_arg7) = (m ((c.tc : Thread nD τ).loc main_arg7)) := by
  show StableHlo.after hostOps3 (W7 m ρ c) (Proc.devRef .tc main_arg7) = _
  after_results_simp
  exact s7_arg7 m ρ c

theorem s8_arg8 : W8 m ρ c (Proc.devRef .tc main_arg8) = (m ((c.tc : Thread nD τ).loc main_arg8)) := by
  show StableHlo.after hostOps3 (W7 m ρ c) (Proc.devRef .tc main_arg8) = _
  after_results_simp
  exact s7_arg8 m ρ c

theorem s8_arg9 : W8 m ρ c (Proc.devRef .tc main_arg9) = (m ((c.tc : Thread nD τ).loc main_arg9)) := by
  show StableHlo.after hostOps3 (W7 m ρ c) (Proc.devRef .tc main_arg9) = _
  after_results_simp
  exact s7_arg9 m ρ c

theorem s9_v61 : W9 m ρ c (Proc.devRef .tc main_v61) = (Cert.ReferenceIdeal.Net.layer Cert.ReferenceIdeal.Facts₀.dot_S100000x32_S32x32_S100000x32_1_0_0_1_n_n_wf (m ((c.tc : Thread nD τ).loc main_arg1)) (Cert.ReferenceIdeal.Net.layer Cert.ReferenceIdeal.Facts₀.dot_S100000x2_S2x32_S100000x32_1_0_0_1_n_n_wf (m ((c.tc : Thread nD τ).loc main_arg1)) (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5))) :=
  (W9_arr m ρ c 2).trans ((Cert.KernelIdeal.Act3.final (V8 m ρ) Cert.ReferenceIdeal.Facts₀.bcast_S1x32_S100000x32_0_1 Cert.ReferenceIdeal.Facts₀.bcast_S_S100000x32 c).trans (by
    show Cert.Spec.act Cert.ReferenceIdeal.Facts₀.bcast_S1x32_S100000x32_0_1 Cert.ReferenceIdeal.Facts₀.bcast_S_S100000x32 (W8 m ρ c (Proc.devRef .tc main_v59)) (W8 m ρ c (Proc.devRef .tc main_v60)) = _
    rw [s8_v59 m ρ c, s8_v60 m ρ c]
    rfl))

theorem s9_arg6 : W9 m ρ c (Proc.devRef .tc main_arg6) = (m ((c.tc : Thread nD τ).loc main_arg6)) :=
  (W9_of_ne m ρ c main_arg6 (by decide)).trans (s8_arg6 m ρ c)

theorem s9_arg7 : W9 m ρ c (Proc.devRef .tc main_arg7) = (m ((c.tc : Thread nD τ).loc main_arg7)) :=
  (W9_of_ne m ρ c main_arg7 (by decide)).trans (s8_arg7 m ρ c)

theorem s9_arg8 : W9 m ρ c (Proc.devRef .tc main_arg8) = (m ((c.tc : Thread nD τ).loc main_arg8)) :=
  (W9_of_ne m ρ c main_arg8 (by decide)).trans (s8_arg8 m ρ c)

theorem s9_arg9 : W9 m ρ c (Proc.devRef .tc main_arg9) = (m ((c.tc : Thread nD τ).loc main_arg9)) :=
  (W9_of_ne m ρ c main_arg9 (by decide)).trans (s8_arg9 m ρ c)

theorem s10_v61 : W10 m ρ c (Proc.devRef .tc main_v61) = (Cert.ReferenceIdeal.Net.layer Cert.ReferenceIdeal.Facts₀.dot_S100000x32_S32x32_S100000x32_1_0_0_1_n_n_wf (m ((c.tc : Thread nD τ).loc main_arg1)) (Cert.ReferenceIdeal.Net.layer Cert.ReferenceIdeal.Facts₀.dot_S100000x2_S2x32_S100000x32_1_0_0_1_n_n_wf (m ((c.tc : Thread nD τ).loc main_arg1)) (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5))) := by
  show StableHlo.after hostOps4 (W9 m ρ c) (Proc.devRef .tc main_v61) = _
  after_results_simp
  exact s9_v61 m ρ c

theorem s10_arg6 : W10 m ρ c (Proc.devRef .tc main_arg6) = (m ((c.tc : Thread nD τ).loc main_arg6)) := by
  show StableHlo.after hostOps4 (W9 m ρ c) (Proc.devRef .tc main_arg6) = _
  after_results_simp
  exact s9_arg6 m ρ c

theorem s10_arg8 : W10 m ρ c (Proc.devRef .tc main_arg8) = (m ((c.tc : Thread nD τ).loc main_arg8)) := by
  show StableHlo.after hostOps4 (W9 m ρ c) (Proc.devRef .tc main_arg8) = _
  after_results_simp
  exact s9_arg8 m ρ c

theorem s10_v62 : W10 m ρ c (Proc.devRef .tc main_v62) = Cert.ReferenceIdeal.Net.row (m ((c.tc : Thread nD τ).loc main_arg7)) := by
  show StableHlo.after hostOps4 (W9 m ρ c) (Proc.devRef .tc main_v62) = _
  after_results_simp
  rw [s9_arg7 m ρ c]
  exact Cert.Mlp.rowCast_eq_bcast _ _ _

theorem s10_v63 : W10 m ρ c (Proc.devRef .tc main_v63) = Cert.ReferenceIdeal.Net.row1 (m ((c.tc : Thread nD τ).loc main_arg9)) := by
  show StableHlo.after hostOps4 (W9 m ρ c) (Proc.devRef .tc main_v63) = _
  after_results_simp
  rw [s9_arg9 m ρ c]
  exact Cert.Mlp.rowCast_eq_bcast _ _ _

/-- The result array after the last call is the network of the arguments. -/
theorem result_eq : W11 m ρ c (Proc.devRef .tc main_v64)
    = Cert.ReferenceIdeal.Net.net (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (W11_arr m ρ c 5).trans ((Cert.KernelIdeal.Head4.final (V10 m ρ) Cert.ReferenceIdeal.Facts₀.dot_S100000x32_S32x32_S100000x32_1_0_0_1_n_n_wf Cert.ReferenceIdeal.Facts₀.dot_S100000x32_S32x1_S100000x1_1_0_0_1_n_n_wf Cert.ReferenceIdeal.Facts₀.bcast_S1x32_S100000x32_0_1 Cert.ReferenceIdeal.Facts₀.bcast_S_S100000x32 Cert.ReferenceIdeal.Facts₀.bcast_S1x1_S100000x1_0_1 c).trans (by
    show Cert.Spec.head Cert.ReferenceIdeal.Facts₀.dot_S100000x32_S32x32_S100000x32_1_0_0_1_n_n_wf Cert.ReferenceIdeal.Facts₀.dot_S100000x32_S32x1_S100000x1_1_0_0_1_n_n_wf Cert.ReferenceIdeal.Facts₀.bcast_S1x32_S100000x32_0_1 Cert.ReferenceIdeal.Facts₀.bcast_S_S100000x32 Cert.ReferenceIdeal.Facts₀.bcast_S1x1_S100000x1_0_1 (W10 m ρ c (Proc.devRef .tc main_v61)) (W10 m ρ c (Proc.devRef .tc main_arg6))
      (W10 m ρ c (Proc.devRef .tc main_v62)) (W10 m ρ c (Proc.devRef .tc main_arg8)) (W10 m ρ c (Proc.devRef .tc main_v63)) = _
    rw [s10_v61 m ρ c, s10_arg6 m ρ c, s10_v62 m ρ c, s10_arg8 m ρ c, s10_v63 m ρ c]
    rfl))

end Cert.KernelIdeal.KVal

end
-- ==== Proof.lean ====
/-
  A two-layer graph convolution with a two-layer read-out, as a Pallas program of five calls among host operations,
  against its jnp reference: the two compute the same function on the extended reals.

  Both programs build, from the edge table, the source and destination index vectors with the self loops appended, the
  node degrees (a scatter-add of ones), their inverse square roots where positive, and the per-edge weights; both gather
  the rows of h · W at the sources, scale them, and scatter-add them at the destinations, with the very same host
  operations. They differ only in who does the dense algebra: the kernel computes h · W, max (a + b, 0) and the read-out
  max (h · Wf1 + bf1, 0) · Wf2 + bf2 in calls blocked over ten blocks of 10000 rows, its operands narrowed to bf16 on the way
  into each product; the reference uses dot_general, a broadcast add and a maximum on whole arrays. On the extended reals a
  change of format is the identity and a product into a zero accumulator is the plain sum over the contracted coordinate,
  so a block of rows of each call's output is the same rows of the whole-array operation (modules Lin0, Lin2, Act1, Act3,
  Head4 over the entry formulas of Spec), and the blocks tile the arrays. Reading the kernel's run segment by segment
  (KValue) gives its result as the network `net` of the arguments (HostSpec), which is, folded, the term the reference's
  run states. No law of arithmetic is used beyond reading the two spellings entry by entry, so the precondition (finite
  inputs) is not needed for the equality.

  The frames of the two kernel programs are the generated ones; the reference's frame is its run with the result dropped;
  the ideal pass rewrote nothing, so there is nothing to preserve.
-/
import proofs.«142883_j11390253269723_1_alg».proof.Defs
import proofs.«142883_j11390253269723_1_alg».proof.Proof.Gen.Kernel
import proofs.«142883_j11390253269723_1_alg».proof.Proof.Gen.Kernel.Frame
import proofs.«142883_j11390253269723_1_alg».proof.Proof.Gen.KernelIdeal
import proofs.«142883_j11390253269723_1_alg».proof.Proof.Gen.KernelIdeal.Frame
import proofs.«142883_j11390253269723_1_alg».proof.Proof.Gen.ReferenceIdeal
import proofs.«142883_j11390253269723_1_alg».proof.Proof.Gen.Pre_finite_inputs
import proofs.«142883_j11390253269723_1_alg».proof.Proof.RefRun
import proofs.«142883_j11390253269723_1_alg».proof.Proof.KRun
import proofs.«142883_j11390253269723_1_alg».proof.Proof.KValue
import proofs.«142883_j11390253269723_1_alg».proof.Proof.HostSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at the network of the arguments. -/
theorem algebraic : Cert.algebraic_KernelIdeal_ReferenceIdeal := by
  intro m ρ m' ρ' _ hagree
  refine ⟨fun c => Cert.ReferenceIdeal.Net.net (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KVal.result_eq m ρ c), (h c).2⟩)
      (Cert.KernelIdeal.RunV.run_value (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9⟩ := hagree c
    rw [Cert.ReferenceIdeal.Net.res_eq, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
